-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S12288x16 : Shape := ⟨2, ![12288, 16]⟩
abbrev S16x256 : Shape := ⟨2, ![16, 256]⟩
abbrev S256 : Shape := ⟨1, ![256]⟩
abbrev S256x16 : Shape := ⟨2, ![256, 16]⟩
abbrev S16 : Shape := ⟨1, ![16]⟩
abbrev S1 : Shape := ⟨1, ![1]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel
  bcast_S_S12288x16 : S_.BroadcastsInDim S12288x16 (![] : Fin 0 → Fin S12288x16.rank)
  reducesTo_S12288x16_S_d0_1 : S12288x16.ReducesTo [0, 1] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x16 .f32) (main_arg5 : FVec F S16 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S12288x12288 .f32) (main_arg1 : FVec F S12288x16 .f32) (main_arg2 : FVec F S16x256 .f32) (main_arg3 : FVec F S256 .f32) (main_arg4 : FVec F S256x16 .f32) (main_arg5 : FVec F S16 .f32) (main_arg6 : FVec F S1 .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  let main_v4 : FVec F S12288x16 .f32 := Host.absf main_arg1
  let main_cst_0 : FVec F S_ .f32 := constant S_ .f32 0x7F800000#32
  let main_v5 : FVec F S12288x16 .f32 := broadcastInDim S12288x16 ![] bcast_S_S12288x16 main_cst_0
  let main_v6 : IVec S12288x16 1 := cmpf .olt main_v4 main_v5
  let main_c_1 : IVec S_ 1 := constantI S_ 1 1#1
  let main_v7 : IVec S_ 1 := (fun x v => Host.reduce IntOp.andi x v reducesTo_S12288x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S12288x12288 : Shape := ⟨2, ![12288, 12288]⟩
abbrev S12288x16 : Shape := ⟨2, ![12288, 16]⟩
abbrev S16x256 : Shape := ⟨2, ![16, 256]⟩
abbrev S256 : Shape := ⟨1, ![256]⟩
abbrev S256x16 : Shape := ⟨2, ![256, 16]⟩
abbrev S16 : Shape := ⟨1, ![16]⟩
abbrev S1 : Shape := ⟨1, ![1]⟩
abbrev S1x12288 : Shape := ⟨2, ![1, 12288]⟩
abbrev S512x3072 : Shape := ⟨2, ![512, 3072]⟩
abbrev S1x3072 : Shape := ⟨2, ![1, 3072]⟩
abbrev S3072 : Shape := ⟨1, ![3072]⟩
abbrev S12288 : Shape := ⟨1, ![12288]⟩
abbrev S_ : Shape := ⟨0, ![]⟩
abbrev S12288x256 : Shape := ⟨2, ![12288, 256]⟩
abbrev S12288x1 : Shape := ⟨2, ![12288, 1]⟩
abbrev S512x256 : Shape := ⟨2, ![512, 256]⟩
abbrev S3072x256 : Shape := ⟨2, ![3072, 256]⟩
abbrev S1x256 : Shape := ⟨2, ![1, 256]⟩
abbrev S512x16 : Shape := ⟨2, ![512, 16]⟩
abbrev S3072x16 : Shape := ⟨2, ![3072, 16]⟩
abbrev S1x16 : Shape := ⟨2, ![1, 16]⟩

abbrev nBuf : Space → Nat
  | .hbm => 71
  | .vmem => 18
  | .smem => 0
  | _ => 0

abbrev bufTy : (tb : Table) → Fin (tcTables nBuf tb) → BufTy
  | .hbm, ⟨0, _⟩ => ⟨S12288x12288, .f32⟩
  | .hbm, ⟨1, _⟩ => ⟨S12288x16, .f32⟩
  | .hbm, ⟨2, _⟩ => ⟨S16x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1, .f32⟩
  | .hbm, ⟨7, _⟩ => ⟨S12288x12288, .bf16⟩
  | .hbm, ⟨8, _⟩ => ⟨S1x12288, .f32⟩
  | .hbm, ⟨9, _⟩ => ⟨S12288, .f32⟩
  | .hbm, ⟨10, _⟩ => ⟨S_, .f32⟩
  | .hbm, ⟨11, _⟩ => ⟨S12288, .f32⟩
  | .hbm, ⟨12, _⟩ => ⟨S12288, .f32⟩
  | .hbm, ⟨13, _⟩ => ⟨S_, .f32⟩
  | .hbm, ⟨14, _⟩ => ⟨S12288, .f32⟩
  | .hbm, ⟨15, _⟩ => ⟨S12288, .i1⟩
  | .hbm, ⟨16, _⟩ => ⟨S12288, .f32⟩
  | .hbm, ⟨17, _⟩ => ⟨S_, .f32⟩
  | .hbm, ⟨18, _⟩ => ⟨S_, .f32⟩
  | .hbm, ⟨19, _⟩ => ⟨S12288, .f32⟩
  | .hbm, ⟨20, _⟩ => ⟨S12288, .f32⟩
  | .hbm, ⟨21, _⟩ => ⟨S12288x256, .f32⟩
  | .hbm, ⟨22, _⟩ => ⟨S12288x1, .f32⟩
  | .hbm, ⟨23, _⟩ => ⟨S12288x256, .f32⟩
  | .hbm, ⟨24, _⟩ => ⟨S12288x256, .f32⟩
  | .hbm, ⟨25, _⟩ => ⟨S12288x256, .f32⟩
  | .hbm, ⟨26, _⟩ => ⟨S12288x1, .f32⟩
  | .hbm, ⟨27, _⟩ => ⟨S12288x256, .f32⟩
  | .hbm, ⟨28, _⟩ => ⟨S12288x256, .f32⟩
  | .hbm, ⟨29, _⟩ => ⟨S12288, .f32⟩
  | .hbm, ⟨30, _⟩ => ⟨S12288x1, .f32⟩
  | .hbm, ⟨31, _⟩ => ⟨S12288x256, .f32⟩
  | .hbm, ⟨32, _⟩ => ⟨S12288x256, .f32⟩
  | .hbm, ⟨33, _⟩ => ⟨S12288x256, .f32⟩
  | .hbm, ⟨34, _⟩ => ⟨S1x256, .f32⟩
  | .hbm, ⟨35, _⟩ => ⟨S12288x256, .f32⟩
  | .hbm, ⟨36, _⟩ => ⟨S12288x256, .f32⟩
  | .hbm, ⟨37, _⟩ => ⟨S_, .f32⟩
  | .hbm, ⟨38, _⟩ => ⟨S12288x256, .f32⟩
  | .hbm, ⟨39, _⟩ => ⟨S12288x256, .f32⟩
  | .hbm, ⟨40, _⟩ => ⟨S12288x16, .f32⟩
  | .hbm, ⟨41, _⟩ => ⟨S12288x1, .f32⟩
  | .hbm, ⟨42, _⟩ => ⟨S12288x16, .f32⟩
  | .hbm, ⟨43, _⟩ => ⟨S12288x16, .f32⟩
  | .hbm, ⟨44, _⟩ => ⟨S12288x16, .f32⟩
  | .hbm, ⟨45, _⟩ => ⟨S12288x1, .f32⟩
  | .hbm, ⟨46, _⟩ => ⟨S12288x16, .f32⟩
  | .hbm, ⟨47, _⟩ => ⟨S12288x16, .f32⟩
  | .hbm, ⟨48, _⟩ => ⟨S12288, .f32⟩
  | .hbm, ⟨49, _⟩ => ⟨S12288x1, .f32⟩
  | .hbm, ⟨50, _⟩ => ⟨S12288x16, .f32⟩
  | .hbm, ⟨51, _⟩ => ⟨S12288x16, .f32⟩
  | .hbm, ⟨52, _⟩ => ⟨S12288x16, .f32⟩
  | .hbm, ⟨53, _⟩ => ⟨S1x16, .f32⟩
  | .hbm, ⟨54, _⟩ => ⟨S12288x16, .f32⟩
  | .hbm, ⟨55, _⟩ => ⟨S12288x16, .f32⟩
  | .hbm, ⟨56, _⟩ => ⟨S12288x16, .f32⟩
  | .hbm, ⟨57, _⟩ => ⟨S_, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S1x16, .f32⟩
  | .hbm, ⟨63, _⟩ => ⟨S12288x16, .f32⟩
  | .hbm, ⟨64, _⟩ => ⟨S12288x16, .f32⟩
  | .hbm, ⟨65, _⟩ => ⟨S12288x16, .f32⟩
  | .hbm, ⟨66, _⟩ => ⟨S_, .f32⟩
  | .hbm, ⟨67, _⟩ => ⟨S16, .f32⟩
  | .hbm, ⟨68, _⟩ => ⟨S1x16, .f32⟩
  | .hbm, ⟨69, _⟩ => ⟨S12288x16, .f32⟩
  | .hbm, ⟨70, _⟩ => ⟨S12288x16, .f32⟩
  | .local _ .vmem, ⟨0, _⟩ => ⟨S512x3072, .f32⟩
  | .local _ .vmem, ⟨1, _⟩ => ⟨S512x3072, .f32⟩
  | .local _ .vmem, ⟨2, _⟩ => ⟨S512x3072, .bf16⟩
  | .local _ .vmem, ⟨3, _⟩ => ⟨S512x3072, .bf16⟩
  | .local _ .vmem, ⟨4, _⟩ => ⟨S1x3072, .f32⟩
  | .local _ .vmem, ⟨5, _⟩ => ⟨S1x3072, .f32⟩
  | .local _ .vmem, ⟨6, _⟩ => ⟨S512x3072, .bf16⟩
  | .local _ .vmem, ⟨7, _⟩ => ⟨S512x3072, .bf16⟩
  | .local _ .vmem, ⟨8, _⟩ => ⟨S512x256, .f32⟩
  | .local _ .vmem, ⟨9, _⟩ => ⟨S512x256, .f32⟩
  | .local _ .vmem, ⟨10, _⟩ => ⟨S3072x256, .f32⟩
  | .local _ .vmem, ⟨11, _⟩ => ⟨S3072x256, .f32⟩
  | .local _ .vmem, ⟨12, _⟩ => ⟨S512x3072, .bf16⟩
  | .local _ .vmem, ⟨13, _⟩ => ⟨S512x3072, .bf16⟩
  | .local _ .vmem, ⟨14, _⟩ => ⟨S512x16, .f32⟩
  | .local _ .vmem, ⟨15, _⟩ => ⟨S512x16, .f32⟩
  | .local _ .vmem, ⟨16, _⟩ => ⟨S3072x16, .f32⟩
  | .local _ .vmem, ⟨17, _⟩ => ⟨S3072x16, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3072x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 24], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S3072x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1x3072_S1x3072_0_0 : ∀ a, (![0, 0] : Fin 2 → Nat) a + S1x3072.size a ≤ S1x3072.size a
  h_S1x3072 : 0 < S1x3072.numel
  inb_S512x3072_S512x3072_0_0 : ∀ a, (![0, 0] : Fin 2 → Nat) a + S512x3072.size a ≤ S512x3072.size a
  h_S512x3072 : 0 < S512x3072.numel
  bitsLt_bf16_f32 : FTy.bits .bf16 < FTy.bits .f32
  packedbf16_S512x3072_S512x3072_0_0 : (Rect.unit (s := S512x3072) ![0, 0] S512x3072.size inb_S512x3072_S512x3072_0_0).PackedRows (EltTy.packing .bf16)
  shapeCasts_S1x3072_S1x3072 : S1x3072.ShapeCasts S1x3072
  reduces_S512x3072_S3072 : S512x3072.Reduces [0] S3072
  shapeCasts_S3072_S1x3072 : S3072.ShapeCasts S1x3072
  shapeCasts_S1x12288_S12288 : S1x12288.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x256_0_1 : S12288x1.BroadcastsInDim S12288x256 (![0, 1] : Fin 2 → Fin S12288x256.rank)
  inb_S3072x256_S3072x256_0_0 : ∀ a, (![0, 0] : Fin 2 → Nat) a + S3072x256.size a ≤ S3072x256.size a
  h_S3072x256 : 0 < S3072x256.numel
  shapeCasts_S512x3072_S512x3072 : S512x3072.ShapeCasts S512x3072
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S3072x256_S3072x256 : S3072x256.ShapeCasts S3072x256
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S_S12288x256 : S_.BroadcastsInDim S12288x256 (![] : Fin 0 → Fin S12288x256.rank)
  bcast_S12288x1_S12288x16_0_1 : S12288x1.BroadcastsInDim S12288x16 (![0, 1] : Fin 2 → Fin S12288x16.rank)
  inb_S3072x16_S3072x16_0_0 : ∀ a, (![0, 0] : Fin 2 → Nat) a + S3072x16.size a ≤ S3072x16.size a
  h_S3072x16 : 0 < S3072x16.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  shapeCasts_S3072x16_S3072x16 : S3072x16.ShapeCasts S3072x16
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  reducesTo_S12288x16_S16_d0 : S12288x16.ReducesTo [0] S16
  h_S_ : 0 < S_.numel
  bcast_S_S16 : S_.BroadcastsInDim S16 (![] : Fin 0 → Fin S16.rank)
  dot_S12288x16_S16x256_S12288x256_1_0_0_1_n_n_wf : DotDims.WF S12288x16 S16x256 S12288x256 [1] [0] [0] [1] [] []
  dot_S512x3072_S512x256_S3072x256_0_0_1_1_n_n_wf : DotDims.WF S512x3072 S512x256 S3072x256 [0] [0] [1] [1] [] []
  dot_S12288x256_S256x16_S12288x16_1_0_0_1_n_n_wf : DotDims.WF S12288x256 S256x16 S12288x16 [1] [0] [0] [1] [] []
  dot_S512x3072_S512x16_S3072x16_0_0_1_1_n_n_wf : DotDims.WF S512x3072 S512x16 S3072x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S12288x12288.size a
  hwx0_0 : ∀ i : grid0.Coords, EltTy.bits .f32 = 32 ∨ (Rect.block (s := S12288x12288) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S12288x12288.size a
  hwx0_1 : ∀ i : grid0.Coords, EltTy.bits .bf16 = 32 ∨ (Rect.block (s := S12288x12288) S512x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x12288.size a
  hwx0_2 : ∀ i : grid0.Coords, EltTy.bits .f32 = 32 ∨ (Rect.block (s := S1x12288) S1x3072.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3072.size a ≤ S12288x12288.size a
  hwx1_0 : ∀ i : grid1.Coords, EltTy.bits .bf16 = 32 ∨ (Rect.block (s := S12288x12288) S512x3072.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S12288x256.size a
  hwx1_1 : ∀ i : grid1.Coords, EltTy.bits .f32 = 32 ∨ (Rect.block (s := S12288x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3072x256.size a ≤ S12288x256.size a
  hwx1_2 : ∀ i : grid1.Coords, EltTy.bits .f32 = 32 ∨ (Rect.block (s := S12288x256) S3072x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x3072.size a ≤ S12288x12288.size a
  hwx2_0 : ∀ i : grid2.Coords, EltTy.bits .bf16 = 32 ∨ (Rect.block (s := S12288x12288) S512x3072.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x16.size a ≤ S12288x16.size a
  hwx2_1 : ∀ i : grid2.Coords, EltTy.bits .f32 = 32 ∨ (Rect.block (s := S12288x16) S512x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3072x16.size a ≤ S12288x16.size a
  hwx2_2 : ∀ i : grid2.Coords, EltTy.bits .f32 = 32 ∨ (Rect.block (s := S12288x16) S3072x16.size (cc2_transform_2 i) (hinb2_2 i)).WholeWords (EltTy.packing .f32)

variable [Facts₀]

def dot_S12288x16_S16x256_S12288x256_1_0_0_1_n_n : DotDims S12288x16 S16x256 S12288x256 where
  lhsContracting := [1]
  rhsContracting := [0]
  lhsNonContracting := [0]
  rhsNonContracting := [1]
  lhsBatch := []
  rhsBatch := []
  wf := dot_S12288x16_S16x256_S12288x256_1_0_0_1_n_n_wf
def dot_S512x3072_S512x256_S3072x256_0_0_1_1_n_n : DotDims S512x3072 S512x256 S3072x256 where
  lhsContracting := [0]
  rhsContracting := [0]
  lhsNonContracting := [1]
  rhsNonContracting := [1]
  lhsBatch := []
  rhsBatch := []
  wf := dot_S512x3072_S512x256_S3072x256_0_0_1_1_n_n_wf
def dot_S12288x256_S256x16_S12288x16_1_0_0_1_n_n : DotDims S12288x256 S256x16 S12288x16 where
  lhsContracting := [1]
  rhsContracting := [0]
  lhsNonContracting := [0]
  rhsNonContracting := [1]
  lhsBatch := []
  rhsBatch := []
  wf := dot_S12288x256_S256x16_S12288x16_1_0_0_1_n_n_wf
def dot_S512x3072_S512x16_S3072x16_0_0_1_1_n_n : DotDims S512x3072 S512x16 S3072x16 where
  lhsContracting := [0]
  rhsContracting := [0]
  lhsNonContracting := [1]
  rhsNonContracting := [1]
  lhsBatch := []
  rhsBatch := []
  wf := dot_S512x3072_S512x16_S3072x16_0_0_1_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x3072.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S512x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S3072x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S512x3072.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S512x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S3072x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x12288 : Shape := ⟨2, ![12288, 12288]⟩
abbrev S12288x16 : Shape := ⟨2, ![12288, 16]⟩
abbrev S16x256 : Shape := ⟨2, ![16, 256]⟩
abbrev S256 : Shape := ⟨1, ![256]⟩
abbrev S256x16 : Shape := ⟨2, ![256, 16]⟩
abbrev S16 : Shape := ⟨1, ![16]⟩
abbrev S1 : Shape := ⟨1, ![1]⟩
abbrev S_ : Shape := ⟨0, ![]⟩
abbrev S12288 : Shape := ⟨1, ![12288]⟩
abbrev S12288x256 : Shape := ⟨2, ![12288, 256]⟩
abbrev S12288x1 : Shape := ⟨2, ![12288, 1]⟩
abbrev S1x256 : Shape := ⟨2, ![1, 256]⟩
abbrev S1x16 : Shape := ⟨2, ![1, 16]⟩

abbrev nBuf : Space → Nat
  | .hbm => 67
  | .vmem => 0
  | .smem => 0
  | _ => 0

abbrev bufTy : (tb : Table) → Fin (tcTables nBuf tb) → BufTy
  | .hbm, ⟨0, _⟩ => ⟨S12288x12288, .f32⟩
  | .hbm, ⟨1, _⟩ => ⟨S12288x16, .f32⟩
  | .hbm, ⟨2, _⟩ => ⟨S16x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1, .f32⟩
  | .hbm, ⟨7, _⟩ => ⟨S12288x12288, .i32⟩
  | .hbm, ⟨8, _⟩ => ⟨S12288x12288, .i32⟩
  | .hbm, ⟨9, _⟩ => ⟨S_, .i32⟩
  | .hbm, ⟨10, _⟩ => ⟨S12288x12288, .i32⟩
  | .hbm, ⟨11, _⟩ => ⟨S12288x12288, .i32⟩
  | .hbm, ⟨12, _⟩ => ⟨S12288x12288, .i1⟩
  | .hbm, ⟨13, _⟩ => ⟨S12288x12288, .f32⟩
  | .hbm, ⟨14, _⟩ => ⟨S12288x12288, .f32⟩
  | .hbm, ⟨15, _⟩ => ⟨S_, .f32⟩
  | .hbm, ⟨16, _⟩ => ⟨S12288, .f32⟩
  | .hbm, ⟨17, _⟩ => ⟨S_, .f32⟩
  | .hbm, ⟨18, _⟩ => ⟨S12288, .f32⟩
  | .hbm, ⟨19, _⟩ => ⟨S12288, .i1⟩
  | .hbm, ⟨20, _⟩ => ⟨S12288, .f32⟩
  | .hbm, ⟨21, _⟩ => ⟨S_, .f32⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288x256, .f32⟩
  | .hbm, ⟨26, _⟩ => ⟨S12288x1, .f32⟩
  | .hbm, ⟨27, _⟩ => ⟨S12288x12288, .f32⟩
  | .hbm, ⟨28, _⟩ => ⟨S12288x1, .f32⟩
  | .hbm, ⟨29, _⟩ => ⟨S12288x256, .f32⟩
  | .hbm, ⟨30, _⟩ => ⟨S12288x256, .f32⟩
  | .hbm, ⟨31, _⟩ => ⟨S12288x256, .f32⟩
  | .hbm, ⟨32, _⟩ => ⟨S12288x256, .f32⟩
  | .hbm, ⟨33, _⟩ => ⟨S12288x256, .f32⟩
  | .hbm, ⟨34, _⟩ => ⟨S1x256, .f32⟩
  | .hbm, ⟨35, _⟩ => ⟨S12288x256, .f32⟩
  | .hbm, ⟨36, _⟩ => ⟨S12288x256, .f32⟩
  | .hbm, ⟨37, _⟩ => ⟨S_, .f32⟩
  | .hbm, ⟨38, _⟩ => ⟨S12288x256, .f32⟩
  | .hbm, ⟨39, _⟩ => ⟨S12288x256, .f32⟩
  | .hbm, ⟨40, _⟩ => ⟨S12288x16, .f32⟩
  | .hbm, ⟨41, _⟩ => ⟨S12288x1, .f32⟩
  | .hbm, ⟨42, _⟩ => ⟨S12288x12288, .f32⟩
  | .hbm, ⟨43, _⟩ => ⟨S12288x1, .f32⟩
  | .hbm, ⟨44, _⟩ => ⟨S12288x16, .f32⟩
  | .hbm, ⟨45, _⟩ => ⟨S12288x16, .f32⟩
  | .hbm, ⟨46, _⟩ => ⟨S12288x16, .f32⟩
  | .hbm, ⟨47, _⟩ => ⟨S12288x16, .f32⟩
  | .hbm, ⟨48, _⟩ => ⟨S12288x16, .f32⟩
  | .hbm, ⟨49, _⟩ => ⟨S1x16, .f32⟩
  | .hbm, ⟨50, _⟩ => ⟨S12288x16, .f32⟩
  | .hbm, ⟨51, _⟩ => ⟨S12288x16, .f32⟩
  | .hbm, ⟨52, _⟩ => ⟨S12288x16, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S1x16, .f32⟩
  | .hbm, ⟨59, _⟩ => ⟨S12288x16, .f32⟩
  | .hbm, ⟨60, _⟩ => ⟨S12288x16, .f32⟩
  | .hbm, ⟨61, _⟩ => ⟨S12288x16, .f32⟩
  | .hbm, ⟨62, _⟩ => ⟨S_, .f32⟩
  | .hbm, ⟨63, _⟩ => ⟨S16, .f32⟩
  | .hbm, ⟨64, _⟩ => ⟨S1x16, .f32⟩
  | .hbm, ⟨65, _⟩ => ⟨S12288x16, .f32⟩
  | .hbm, ⟨66, _⟩ => ⟨S12288x16, .f32⟩
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  reducesTo_S12288x12288_S12288_d0 : S12288x12288.ReducesTo [0] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  transposes_S12288x12288_S12288x12288_1_0 : S12288x12288.Transposes [1, 0] S12288x12288
  bcast_S12288x1_S12288x256_0_1 : S12288x1.BroadcastsInDim S12288x256 (![0, 1] : Fin 2 → Fin S12288x256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S_S12288x256 : S_.BroadcastsInDim S12288x256 (![] : Fin 0 → Fin S12288x256.rank)
  bcast_S12288x1_S12288x16_0_1 : S12288x1.BroadcastsInDim S12288x16 (![0, 1] : Fin 2 → Fin S12288x16.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  reducesTo_S12288x16_S16_d0 : S12288x16.ReducesTo [0] S16
  bcast_S_S16 : S_.BroadcastsInDim S16 (![] : Fin 0 → Fin S16.rank)
  dot_S12288x16_S16x256_S12288x256_1_0_0_1_n_n_wf : DotDims.WF S12288x16 S16x256 S12288x256 [1] [0] [0] [1] [] []
  dot_S12288x12288_S12288x256_S12288x256_1_0_0_1_n_n_wf : DotDims.WF S12288x12288 S12288x256 S12288x256 [1] [0] [0] [1] [] []
  dot_S12288x256_S256x16_S12288x16_1_0_0_1_n_n_wf : DotDims.WF S12288x256 S256x16 S12288x16 [1] [0] [0] [1] [] []
  dot_S12288x12288_S12288x16_S12288x16_1_0_0_1_n_n_wf : DotDims.WF S12288x12288 S12288x16 S12288x16 [1] [0] [0] [1] [] []

variable [Facts₀]

def dot_S12288x16_S16x256_S12288x256_1_0_0_1_n_n : DotDims S12288x16 S16x256 S12288x256 where
  lhsContracting := [1]
  rhsContracting := [0]
  lhsNonContracting := [0]
  rhsNonContracting := [1]
  lhsBatch := []
  rhsBatch := []
  wf := dot_S12288x16_S16x256_S12288x256_1_0_0_1_n_n_wf
def dot_S12288x12288_S12288x256_S12288x256_1_0_0_1_n_n : DotDims S12288x12288 S12288x256 S12288x256 where
  lhsContracting := [1]
  rhsContracting := [0]
  lhsNonContracting := [0]
  rhsNonContracting := [1]
  lhsBatch := []
  rhsBatch := []
  wf := dot_S12288x12288_S12288x256_S12288x256_1_0_0_1_n_n_wf
def dot_S12288x256_S256x16_S12288x16_1_0_0_1_n_n : DotDims S12288x256 S256x16 S12288x16 where
  lhsContracting := [1]
  rhsContracting := [0]
  lhsNonContracting := [0]
  rhsNonContracting := [1]
  lhsBatch := []
  rhsBatch := []
  wf := dot_S12288x256_S256x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf

class Facts : Prop extends Facts₀ where

variable [Facts]
-- ==== Proof.KRun.lean ====
/-
  The idealized kernel's run, with its result named.

  The program is three device regions among stretches of host operations.  Its generated frame already lists the
  contents of every buffer at every boundary between those segments — the launch memory, then after each region its
  arrays at what the region's write-backs leave, then after each host stretch the fold of its operations — and proves
  that every weakly fair execution terminates with every unscoped buffer at the last boundary's contents.  Here the
  same segments are run once more and the final state is read at one more buffer, the program's result: it holds the
  last boundary's contents there, and the seven argument arrays are as launched.
-/
import proofs.«181473_j18975165513738_2_alg».proof.Proof.Gen.KernelIdeal.Frame

set_option maxRecDepth 16384

noncomputable section

namespace Cert.Gcn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    of the last segment boundary and the argument arrays as launched. -/
theorem run : θ_run defs (onTc (τ := τ) (main (F := F))) ⟨m, fun _ => 0, ρ⟩ (fun r => ∀ c : Dev nD,
      r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.Gcn.Ker

end
-- ==== Proof.Tail.lean ====
/-
  The softmax taken down each column of a 12288 × 16 array, written with the host operations both programs end with:
  the column maxima (a max-reduction from -∞, then a maximum with -∞ again), the array minus its column's maximum,
  the exponential, the column sums of the exponentials, and the quotient.  Both programs apply exactly this chain to
  their last array, so it is named once and never opened.
-/
import proofs.«181473_j18975165513738_2_alg».proof.Proof.Gen.ReferenceIdeal
import Idealize.ShloMosaic.PureOps.Ideal

noncomputable section

namespace Cert.Gcn

open Idealize.ShloMosaic Cert.ReferenceIdeal Cert.ReferenceIdeal.Gen

/-- The exponentials of the entries less their column's maximum. -/
def expShifted (p : FVec Ideal S12288x16 .f32) : FVec Ideal S12288x16 .f32 :=
  Host.exp (F := Ideal) (subf p (broadcastInDim S12288x16 ![0, 1] bcast_S1x16_S12288x16_0_1
    (broadcastInDim S1x16 ![1] bcast_S16_S1x16_1
      (maximumf (broadcastInDim S16 ![] bcast_S_S16 (constant (F := Ideal) S_ .f32 0xFF800000#32))
        (Host.reduce (FloatOps.maximumf (F := Ideal) (φ := .f32)) p (constant (F := Ideal) S_ .f32 0xFF800000#32) reducesTo_S12288x16_S16_d0 h_S_)))))

/-- The column-wise softmax. -/
def softmax0 (p : FVec Ideal S12288x16 .f32) : FVec Ideal S12288x16 .f32 :=
  Host.divf (F := Ideal) (expShifted p) (broadcastInDim S12288x16 ![0, 1] bcast_S1x16_S12288x16_0_1
    (broadcastInDim S1x16 ![1] bcast_S16_S1x16_1
      (Host.reduceAdd (F := Ideal) (expShifted p) (constant (F := Ideal) S_ .f32 0x00000000#32) reducesTo_S12288x16_S16_d0 h_S_)))

end Cert.Gcn

end
-- ==== Proof.Spec.lean ====
/-
  A two-layer graph convolution with symmetric normalisation, in two arrangements, index by index on the extended reals.

  Nodes are numbered by `Fin 12288`; `A i j` is the weight of the edge from node `i` to node `j`.  Every node also has a
  self loop, so the in-degree of node `j` is the `j`-th column sum of `A` plus one, and the normalising factor of a node is
  its in-degree to the power -1/2 (zero when the in-degree is not positive).  One layer sends per-node features `h` to

      out j c = d j · ( Σ_i (A i j + [i = j]) · (d i · h i c) ) + b c.

  The first arrangement adds the identity matrix to `A` before summing (`degR`, `layerR`); the second sums over `A` alone
  and accounts for the self loop by a separate term, `d j · d j · h j c` (`degK`, `layerK`).  The two agree whenever every
  entry involved is a real number: the step between them is distributivity, which fails at the infinities.
  Two layers, a rectifier between them, and the input features added back to the second layer's output give the arrays
  `preR` and `preK` on which a column-wise softmax is then taken.
-/
import Idealize.ShloMosaic.Lib.ValueIdx
import Idealize.ShloMosaic.PureOps.Ideal

noncomputable section

namespace Cert.Gcn

open Idealize.ShloMosaic

/-- The number of nodes. -/
abbrev Nn : ℕ := 12288

/-- The float zero, as an extended real (the pattern of `+0.0`). -/
abbrev z32 : EReal := Ideal.ofBits .f32 0x00000000#32

/-- The entry of the identity matrix: one on the diagonal, zero off it. -/
def eye (i j : Fin Nn) : EReal := if i = j then 1 else 0

/-- The normalising factor of a node of in-degree `d`: `d^(-1/2)` when `d` is positive, zero otherwise. -/
def inv (d : EReal) : EReal := Scalar.select (Ideal.cmp .ogt d z32) (Ideal.rsqrt d) z32

variable (A : Fin Nn → Fin Nn → EReal)

/-- In-degree with the self loop counted separately: the column sum, plus one. -/
def degK (j : Fin Nn) : EReal := (∑ i : Fin Nn, A i j) + 1

/-- In-degree as the column sum of the matrix with the identity added. -/
def degR (j : Fin Nn) : EReal := ∑ i : Fin Nn, (A i j + eye i j)

/-- A dense layer: features times weights. -/
def lin {a k n : ℕ} (X : Fin a → Fin k → EReal) (W : Fin k → Fin n → EReal) (i : Fin a) (c : Fin n) : EReal :=
  ∑ q : Fin k, X i q * W q c

/-- The rectifier. -/
def relu {a n : ℕ} (o : Fin a → Fin n → EReal) (i : Fin a) (c : Fin n) : EReal := max (o i c) z32

/-- Aggregation over the incoming edges of `A` alone. -/
def aggK {n : ℕ} (Y : Fin Nn → Fin n → EReal) (j : Fin Nn) (c : Fin n) : EReal := ∑ i : Fin Nn, A i j * Y i c

/-- Aggregation over the incoming edges of `A` with the identity added. -/
def aggR {n : ℕ} (Y : Fin Nn → Fin n → EReal) (j : Fin Nn) (c : Fin n) : EReal := ∑ k : Fin Nn, (A k j + eye k j) * Y k c

/-- One layer, the self loop as a separate term. -/
def layerK {n : ℕ} (d : Fin Nn → EReal) (h : Fin Nn → Fin n → EReal) (b : Fin n → EReal) (j : Fin Nn) (c : Fin n) : EReal :=
  d j * aggK A (fun i c => d i * h i c) j c + (d j * d j) * h j c + b c

/-- One layer, the self loop inside the matrix. -/
def layerR {n : ℕ} (d : Fin Nn → EReal) (h : Fin Nn → Fin n → EReal) (b : Fin n → EReal) (j : Fin Nn) (c : Fin n) : EReal :=
  d j * aggR A (fun i c => d i * h i c) j c + b c

variable (x : Fin Nn → Fin 16 → EReal) (W1 : Fin 16 → Fin 256 → EReal) (b1 : Fin 256 → EReal)
  (W2 : Fin 256 → Fin 16 → EReal) (b2 : Fin 16 → EReal)

/-- Both layers and the skip connection, the self loop as a separate term: what the softmax is taken of. -/
def preK (j : Fin Nn) (c : Fin 16) : EReal :=
  layerK A (fun j => inv (degK A j))
    (lin (relu (layerK A (fun j => inv (degK A j)) (lin x W1) b1)) W2) b2 j c + x j c

/-- Both layers and the skip connection, the self loop inside the matrix. -/
def preR (j : Fin Nn) (c : Fin 16) : EReal :=
  layerR A (fun j => inv (degR A j))
    (lin (relu (layerR A (fun j => inv (degR A j)) (lin x W1) b1)) W2) b2 j c + x j c

end Cert.Gcn

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.KOps.lean ====
/-
  The host-side building blocks of the graph convolution, read at an index on the extended reals.

  A vector of per-row factors broadcast across the columns of a matrix and multiplied into it scales row i by the
  i-th factor; a layer's output dis·agg + dis²·h + b reads entry by entry as the same expression of the entries; the
  rectifier is the maximum with zero; the normalising factor computed from a row of column sums is `inv` of the sum
  plus one; a plain matrix product is the sum over the contracted coordinate.
-/
import proofs.«181473_j18975165513738_2_alg».proof.Proof.Spec
import proofs.«181473_j18975165513738_2_alg».proof.Proof.LibBcast
import proofs.«181473_j18975165513738_2_alg».proof.Proof.LibDot
import Idealize.ShloMosaic.Lib.IdealHost
import Idealize.ShloMosaic.Lib.ValueLayout

noncomputable section

namespace Cert.Gcn.KOps

open Idealize.ShloMosaic Idealize.ShloMosaic.ValueIdx

variable {a n : ℕ}

/-- Rows scaled by per-row factors. -/
theorem scaled_apply (d : FVec Ideal ⟨1, ![a]⟩ .f32) (h : FVec Ideal ⟨2, ![a, n]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (i : Fin a) (c : Fin n) :
    mulf (broadcastInDim ⟨2, ![a, n]⟩ ![0, 1] h2 (broadcastInDim ⟨2, ![a, 1]⟩ ![0] h1 d)) h (ix2 i c)
      = d (ix1 i) * h (ix2 i c) := by
  rw [mulf_apply, Cert.LibBcast.rows_apply]

/-- One layer's output, the self loop as a separate term, entry by entry. -/
theorem layer_apply (d : FVec Ideal ⟨1, ![a]⟩ .f32) (agg h : FVec Ideal ⟨2, ![a, n]⟩ .f32) (b : FVec Ideal ⟨1, ![n]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2))
    (h3 : (⟨1, ![n]⟩ : Shape).BroadcastsInDim ⟨2, ![1, n]⟩ (![1] : Fin 1 → Fin 2))
    (h4 : (⟨2, ![1, n]⟩ : Shape).BroadcastsInDim ⟨2, ![a, n]⟩ (![0, 1] : Fin 2 → Fin 2)) (j : Fin a) (c : Fin n) :
    addf (addf (mulf (broadcastInDim ⟨2, ![a, n]⟩ ![0, 1] h2 (broadcastInDim ⟨2, ![a, 1]⟩ ![0] h1 d)) agg)
        (mulf (broadcastInDim ⟨2, ![a, n]⟩ ![0, 1] h2 (broadcastInDim ⟨2, ![a, 1]⟩ ![0] h1 (mulf d d))) h))
      (broadcastInDim ⟨2, ![a, n]⟩ ![0, 1] h4 (broadcastInDim ⟨2, ![1, n]⟩ ![1] h3 b)) (ix2 j c)
      = d (ix1 j) * agg (ix2 j c) + (d (ix1 j) * d (ix1 j)) * h (ix2 j c) + b (ix1 c) := by
  rw [addf_apply, addf_apply, mulf_apply, mulf_apply, Cert.LibBcast.rows_apply, Cert.LibBcast.rows_apply,
    Cert.LibBcast.cols_apply, mulf_apply]

/-- The rectifier: the maximum with the float zero. -/
theorem relu_apply {S : Shape} (o : FVec Ideal S .f32) (hb : (⟨0, ![]⟩ : Shape).BroadcastsInDim S (![] : Fin 0 → Fin S.rank)) (i : S.Idx) :
    maximumf o (broadcastInDim S ![] hb (constant (F := Ideal) ⟨0, ![]⟩ .f32 0x00000000#32)) i = max (o i) Cert.Gcn.z32 := by
  rw [maximumf_apply, Cert.LibBcast.scalar_apply, constant_apply]

/-- The normalising factors from a row of column sums: the sum plus one, its reciprocal square root where positive. -/
theorem dis_apply (cs : FVec Ideal ⟨2, ![1, a]⟩ .f32) (hc : (⟨2, ![1, a]⟩ : Shape).ShapeCasts ⟨1, ![a]⟩)
    (hb : (⟨0, ![]⟩ : Shape).BroadcastsInDim ⟨1, ![a]⟩ (![] : Fin 0 → Fin 1)) (j : Fin a) :
    select (cmpf .ogt (addf (shapeCast ⟨1, ![a]⟩ cs hc) (broadcastInDim ⟨1, ![a]⟩ ![] hb (constant (F := Ideal) ⟨0, ![]⟩ .f32 0x3F800000#32)))
        (broadcastInDim ⟨1, ![a]⟩ ![] hb (constant (F := Ideal) ⟨0, ![]⟩ .f32 0x00000000#32)))
      (Host.rsqrt (addf (shapeCast ⟨1, ![a]⟩ cs hc) (broadcastInDim ⟨1, ![a]⟩ ![] hb (constant (F := Ideal) ⟨0, ![]⟩ .f32 0x3F800000#32))))
      (broadcastInDim ⟨1, ![a]⟩ ![] hb (id (constant (F := Ideal) ⟨0, ![]⟩ .f32 0x00000000#32))) (ix1 j)
      = Cert.Gcn.inv (cs (ix2 (0 : Fin 1) j) + 1) := by
  rw [select_apply, cmpf_apply, addf_apply, Cert.LibBcast.row_reshape_apply, Cert.LibBcast.scalar_apply,
    Cert.LibBcast.scalar_apply, Cert.LibBcast.scalar_apply, constant_apply, constant_apply, Ideal.ofBits_one_f32]
  show Scalar.select (FloatOps.cmpf .ogt _ _) (FloatOps.hostUnary .rsqrt _) _ = _
  rw [Ideal.cmpf_def, Ideal.hostUnary_rsqrt_def, addf_apply, Cert.LibBcast.row_reshape_apply, Cert.LibBcast.scalar_apply,
    constant_apply, Ideal.ofBits_one_f32]
  rfl

/-- A plain matrix product on the host, entry by entry. -/
theorem dot_apply {M K N : ℕ} (dd : DotDims ⟨2, ![M, K]⟩ ⟨2, ![K, N]⟩ ⟨2, ![M, N]⟩)
    (hlc : dd.lhsContracting = [1]) (hrc : dd.rhsContracting = [0]) (hln : dd.lhsNonContracting = [0])
    (hrn : dd.rhsNonContracting = [1]) (hlb : dd.lhsBatch = []) (hrb : dd.rhsBatch = [])
    (l : FVec Ideal ⟨2, ![M, K]⟩ .f32) (r : FVec Ideal ⟨2, ![K, N]⟩ .f32) (i : Fin M) (c : Fin N) :
    Host.dotGeneral dd none l r (ix2 i c) = ∑ k : Fin K, l (ix2 i k) * r (ix2 k c) := by
  simp only [Host.dotGeneral]
  exact Cert.LibDot.dotGeneral_plain_apply dd hlc hrc hln hrn hlb hrb none _ l r (ix2 i c)

end Cert.Gcn.KOps

end
-- ==== Proof.KStretch.lean ====
/-
  The host stretches of the idealized kernel, one at a time, for ANY contents `W` of the buffers when the stretch
  starts: what each buffer the stretch computes holds at an index, in terms of the buffers it reads, and which buffers
  the stretch leaves as they were.  Between the first and second regions: the in-degrees' normalising factors, the
  first dense layer and its row scaling.  Between the second and third: the first layer's output, its rectifier, the
  second dense layer and its row scaling.  After the third: the second layer's output with the input features added
  back, and the column-wise softmax of that array.
-/
import proofs.«181473_j18975165513738_2_alg».proof.Proof.Gen.KernelIdeal.Frame
import proofs.«181473_j18975165513738_2_alg».proof.Proof.Tail
import proofs.«181473_j18975165513738_2_alg».proof.Proof.KOps
import Idealize.ShloMosaic.Lib.StableHlo.Run

set_option maxRecDepth 16384

noncomputable section

namespace Cert.Gcn.KS

open Cert.KernelIdeal Cert.KernelIdeal.Gen
open Idealize.ShloMosaic Idealize.ShloMosaic.TcCoe Idealize.SL.Sem Idealize.ShloMosaic.StableHlo Idealize.ShloMosaic.ValueIdx

/-- The contents of buffer `arg1`, as extended reals. -/
abbrev r_arg1 (W : Valuation τ sig (Elt Ideal)) : S12288x16.Idx → EReal := W (Proc.devRef .tc main_arg1)
/-- The contents of buffer `arg2`, as extended reals. -/
abbrev r_arg2 (W : Valuation τ sig (Elt Ideal)) : S16x256.Idx → EReal := W (Proc.devRef .tc main_arg2)
/-- The contents of buffer `arg3`, as extended reals. -/
abbrev r_arg3 (W : Valuation τ sig (Elt Ideal)) : S256.Idx → EReal := W (Proc.devRef .tc main_arg3)
/-- The contents of buffer `arg4`, as extended reals. -/
abbrev r_arg4 (W : Valuation τ sig (Elt Ideal)) : S256x16.Idx → EReal := W (Proc.devRef .tc main_arg4)
/-- The contents of buffer `arg5`, as extended reals. -/
abbrev r_arg5 (W : Valuation τ sig (Elt Ideal)) : S16.Idx → EReal := W (Proc.devRef .tc main_arg5)
/-- The contents of buffer `v0_0`, as extended reals. -/
abbrev r_v0_0 (W : Valuation τ sig (Elt Ideal)) : S12288x12288.Idx → EReal := W (Proc.devRef .tc main_v0_0)
/-- The contents of buffer `v0_1`, as extended reals. -/
abbrev r_v0_1 (W : Valuation τ sig (Elt Ideal)) : S1x12288.Idx → EReal := W (Proc.devRef .tc main_v0_1)
/-- The contents of buffer `v7`, as extended reals. -/
abbrev r_v7 (W : Valuation τ sig (Elt Ideal)) : S12288.Idx → EReal := W (Proc.devRef .tc main_v7)
/-- The contents of buffer `v8`, as extended reals. -/
abbrev r_v8 (W : Valuation τ sig (Elt Ideal)) : S12288x256.Idx → EReal := W (Proc.devRef .tc main_v8)
/-- The contents of buffer `v11`, as extended reals. -/
abbrev r_v11 (W : Valuation τ sig (Elt Ideal)) : S12288x256.Idx → EReal := W (Proc.devRef .tc main_v11)
/-- The contents of buffer `v12`, as extended reals. -/
abbrev r_v12 (W : Valuation τ sig (Elt Ideal)) : S12288x256.Idx → EReal := W (Proc.devRef .tc main_v12)
/-- The contents of buffer `v23`, as extended reals. -/
abbrev r_v23 (W : Valuation τ sig (Elt Ideal)) : S12288x256.Idx → EReal := W (Proc.devRef .tc main_v23)
/-- The contents of buffer `v24`, as extended reals. -/
abbrev r_v24 (W : Valuation τ sig (Elt Ideal)) : S12288x256.Idx → EReal := W (Proc.devRef .tc main_v24)
/-- The contents of buffer `v25`, as extended reals. -/
abbrev r_v25 (W : Valuation τ sig (Elt Ideal)) : S12288x16.Idx → EReal := W (Proc.devRef .tc main_v25)
/-- The contents of buffer `v28`, as extended reals. -/
abbrev r_v28 (W : Valuation τ sig (Elt Ideal)) : S12288x16.Idx → EReal := W (Proc.devRef .tc main_v28)
/-- The contents of buffer `v29`, as extended reals. -/
abbrev r_v29 (W : Valuation τ sig (Elt Ideal)) : S12288x16.Idx → EReal := W (Proc.devRef .tc main_v29)

variable (W : Valuation τ sig (Elt Ideal))

/-! ## Between the first and the second region -/

/-- The normalising factor of node `j`: `inv` of its column sum plus one. -/
theorem dis_at (j : Fin 12288) :
    r_v7 (StableHlo.after (hostOps1_1 (F := Ideal)) (StableHlo.after (hostOps1 (F := Ideal)) W)) (ix1 j)
      = Cert.Gcn.inv (r_v0_1 W (ix2 (0 : Fin 1) j) + 1) := by
  refine (congrFun (?e : StableHlo.after (hostOps1_1 (F := Ideal)) (StableHlo.after (hostOps1 (F := Ideal)) W) (Proc.devRef .tc main_v7) = ?t) (ix1 j)).trans ?_
  case e => dsimp only [hostOps1_1, hostOps1]; after_results_simp; rfl
  exact KOps.dis_apply _ _ _ j

/-- The two stretches that compute the normalising factors leave the arguments and the copied matrix alone. -/
theorem keep1 :
    StableHlo.after (hostOps1_1 (F := Ideal)) (StableHlo.after (hostOps1 (F := Ideal)) W) (Proc.devRef .tc main_arg1) = W (Proc.devRef .tc main_arg1)
    ∧ StableHlo.after (hostOps1_1 (F := Ideal)) (StableHlo.after (hostOps1 (F := Ideal)) W) (Proc.devRef .tc main_arg2) = W (Proc.devRef .tc main_arg2)
    ∧ StableHlo.after (hostOps1_1 (F := Ideal)) (StableHlo.after (hostOps1 (F := Ideal)) W) (Proc.devRef .tc main_arg3) = W (Proc.devRef .tc main_arg3)
    ∧ StableHlo.after (hostOps1_1 (F := Ideal)) (StableHlo.after (hostOps1 (F := Ideal)) W) (Proc.devRef .tc main_arg4) = W (Proc.devRef .tc main_arg4)
    ∧ StableHlo.after (hostOps1_1 (F := Ideal)) (StableHlo.after (hostOps1 (F := Ideal)) W) (Proc.devRef .tc main_arg5) = W (Proc.devRef .tc main_arg5)
    ∧ StableHlo.after (hostOps1_1 (F := Ideal)) (StableHlo.after (hostOps1 (F := Ideal)) W) (Proc.devRef .tc main_v0_0) = W (Proc.devRef .tc main_v0_0) := by
  refine ⟨?_, ?_, ?_, ?_, ?_, ?_⟩ <;> (dsimp only [hostOps1_1, hostOps1]; after_results_simp)

/-- The first dense layer: features times weights. -/
theorem h1_at (i : Fin 12288) (c : Fin 256) :
    r_v8 (StableHlo.after (hostOps1_2 (F := Ideal)) W) (ix2 i c) = ∑ k : Fin 16, r_arg1 W (ix2 i k) * r_arg2 W (ix2 k c) := by
  refine (congrFun (?e : StableHlo.after (hostOps1_2 (F := Ideal)) W (Proc.devRef .tc main_v8) = ?t) (ix2 i c)).trans ?_
  case e => dsimp only [hostOps1_2]; after_results_simp; rfl
  exact KOps.dot_apply dot_S12288x16_S16x256_S12288x256_1_0_0_1_n_n rfl rfl rfl rfl rfl rfl _ _ i c

/-- Its rows scaled by the normalising factors. -/
theorem y1_at (i : Fin 12288) (c : Fin 256) :
    r_v11 (StableHlo.after (hostOps1_2 (F := Ideal)) W) (ix2 i c) = r_v7 W (ix1 i) * ∑ k : Fin 16, r_arg1 W (ix2 i k) * r_arg2 W (ix2 k c) := by
  refine (congrFun (?e : StableHlo.after (hostOps1_2 (F := Ideal)) W (Proc.devRef .tc main_v11) = ?t) (ix2 i c)).trans ?_
  case e => dsimp only [hostOps1_2]; after_results_simp; rfl
  exact (KOps.scaled_apply _ _ _ _ i c).trans (congrArg _ (KOps.dot_apply dot_S12288x16_S16x256_S12288x256_1_0_0_1_n_n rfl rfl rfl rfl rfl rfl _ _ i c))

/-- The first dense layer's stretch leaves the arguments, the copied matrix and the normalising factors alone. -/
theorem keep12 :
    StableHlo.after (hostOps1_2 (F := Ideal)) W (Proc.devRef .tc main_arg1) = W (Proc.devRef .tc main_arg1)
    ∧ StableHlo.after (hostOps1_2 (F := Ideal)) W (Proc.devRef .tc main_arg2) = W (Proc.devRef .tc main_arg2)
    ∧ StableHlo.after (hostOps1_2 (F := Ideal)) W (Proc.devRef .tc main_arg3) = W (Proc.devRef .tc main_arg3)
    ∧ StableHlo.after (hostOps1_2 (F := Ideal)) W (Proc.devRef .tc main_arg4) = W (Proc.devRef .tc main_arg4)
    ∧ StableHlo.after (hostOps1_2 (F := Ideal)) W (Proc.devRef .tc main_arg5) = W (Proc.devRef .tc main_arg5)
    ∧ StableHlo.after (hostOps1_2 (F := Ideal)) W (Proc.devRef .tc main_v0_0) = W (Proc.devRef .tc main_v0_0)
    ∧ StableHlo.after (hostOps1_2 (F := Ideal)) W (Proc.devRef .tc main_v7) = W (Proc.devRef .tc main_v7) := by
  refine ⟨?_, ?_, ?_, ?_, ?_, ?_, ?_⟩ <;> (dsimp only [hostOps1_2]; after_results_simp)

/-! ## Between the second and the third region -/

/-- The first layer's output: the aggregate scaled, the self-loop term, the bias. -/
theorem o1_at (j : Fin 12288) (c : Fin 256) :
    r_v23 (StableHlo.after (hostOps2 (F := Ideal)) W) (ix2 j c)
      = r_v7 W (ix1 j) * r_v12 W (ix2 j c) + (r_v7 W (ix1 j) * r_v7 W (ix1 j)) * r_v8 W (ix2 j c) + r_arg3 W (ix1 c) := by
  refine (congrFun (?e : StableHlo.after (hostOps2 (F := Ideal)) W (Proc.devRef .tc main_v23) = ?t) (ix2 j c)).trans ?_
  case e => dsimp only [hostOps2]; after_results_simp; rfl
  exact KOps.layer_apply _ _ _ _ _ _ _ _ j c

/-- The first layer's output stretch leaves those buffers alone. -/
theorem keep2 :
    StableHlo.after (hostOps2 (F := Ideal)) W (Proc.devRef .tc main_arg1) = W (Proc.devRef .tc main_arg1)
    ∧ StableHlo.after (hostOps2 (F := Ideal)) W (Proc.devRef .tc main_arg2) = W (Proc.devRef .tc main_arg2)
    ∧ StableHlo.after (hostOps2 (F := Ideal)) W (Proc.devRef .tc main_arg3) = W (Proc.devRef .tc main_arg3)
    ∧ StableHlo.after (hostOps2 (F := Ideal)) W (Proc.devRef .tc main_arg4) = W (Proc.devRef .tc main_arg4)
    ∧ StableHlo.after (hostOps2 (F := Ideal)) W (Proc.devRef .tc main_arg5) = W (Proc.devRef .tc main_arg5)
    ∧ StableHlo.after (hostOps2 (F := Ideal)) W (Proc.devRef .tc main_v0_0) = W (Proc.devRef .tc main_v0_0)
    ∧ StableHlo.after (hostOps2 (F := Ideal)) W (Proc.devRef .tc main_v7) = W (Proc.devRef .tc main_v7) := by
  refine ⟨?_, ?_, ?_, ?_, ?_, ?_, ?_⟩ <;> (dsimp only [hostOps2]; after_results_simp)

/-- The rectifier. -/
theorem r1_at (i : S12288x256.Idx) : r_v24 (StableHlo.after (hostOps2_1 (F := Ideal)) W) i = max (r_v23 W i) Cert.Gcn.z32 := by
  refine (congrFun (?e : StableHlo.after (hostOps2_1 (F := Ideal)) W (Proc.devRef .tc main_v24) = ?t) i).trans ?_
  case e => dsimp only [hostOps2_1]; after_results_simp; rfl
  show maximumf (F := Ideal) (W (Proc.devRef .tc main_v23))
    (broadcastInDim S12288x256 ![] bcast_S_S12288x256 (constant (F := Ideal) S_ .f32 0x00000000#32)) i = _
  exact KOps.relu_apply _ bcast_S_S12288x256 i

/-- The rectifier's stretch leaves those buffers alone. -/
theorem keep21 :
    StableHlo.after (hostOps2_1 (F := Ideal)) W (Proc.devRef .tc main_arg1) = W (Proc.devRef .tc main_arg1)
    ∧ StableHlo.after (hostOps2_1 (F := Ideal)) W (Proc.devRef .tc main_arg2) = W (Proc.devRef .tc main_arg2)
    ∧ StableHlo.after (hostOps2_1 (F := Ideal)) W (Proc.devRef .tc main_arg3) = W (Proc.devRef .tc main_arg3)
    ∧ StableHlo.after (hostOps2_1 (F := Ideal)) W (Proc.devRef .tc main_arg4) = W (Proc.devRef .tc main_arg4)
    ∧ StableHlo.after (hostOps2_1 (F := Ideal)) W (Proc.devRef .tc main_arg5) = W (Proc.devRef .tc main_arg5)
    ∧ StableHlo.after (hostOps2_1 (F := Ideal)) W (Proc.devRef .tc main_v0_0) = W (Proc.devRef .tc main_v0_0)
    ∧ StableHlo.after (hostOps2_1 (F := Ideal)) W (Proc.devRef .tc main_v7) = W (Proc.devRef .tc main_v7) := by
  refine ⟨?_, ?_, ?_, ?_, ?_, ?_, ?_⟩ <;> (dsimp only [hostOps2_1]; after_results_simp)

/-- The second dense layer. -/
theorem h2_at (i : Fin 12288) (c : Fin 16) :
    r_v25 (StableHlo.after (hostOps2_2 (F := Ideal)) W) (ix2 i c) = ∑ k : Fin 256, r_v24 W (ix2 i k) * r_arg4 W (ix2 k c) := by
  refine (congrFun (?e : StableHlo.after (hostOps2_2 (F := Ideal)) W (Proc.devRef .tc main_v25) = ?t) (ix2 i c)).trans ?_
  case e => dsimp only [hostOps2_2]; after_results_simp; rfl
  exact KOps.dot_apply dot_S12288x256_S256x16_S12288x16_1_0_0_1_n_n rfl rfl rfl rfl rfl rfl _ _ i c

/-- Its rows scaled by the normalising factors. -/
theorem y2_at (i : Fin 12288) (c : Fin 16) :
    r_v28 (StableHlo.after (hostOps2_2 (F := Ideal)) W) (ix2 i c) = r_v7 W (ix1 i) * ∑ k : Fin 256, r_v24 W (ix2 i k) * r_arg4 W (ix2 k c) := by
  refine (congrFun (?e : StableHlo.after (hostOps2_2 (F := Ideal)) W (Proc.devRef .tc main_v28) = ?t) (ix2 i c)).trans ?_
  case e => dsimp only [hostOps2_2]; after_results_simp; rfl
  exact (KOps.scaled_apply _ _ _ _ i c).trans (congrArg _ (KOps.dot_apply dot_S12288x256_S256x16_S12288x16_1_0_0_1_n_n rfl rfl rfl rfl rfl rfl _ _ i c))

/-- The second dense layer's stretch leaves those buffers alone. -/
theorem keep22 :
    StableHlo.after (hostOps2_2 (F := Ideal)) W (Proc.devRef .tc main_arg1) = W (Proc.devRef .tc main_arg1)
    ∧ StableHlo.after (hostOps2_2 (F := Ideal)) W (Proc.devRef .tc main_arg2) = W (Proc.devRef .tc main_arg2)
    ∧ StableHlo.after (hostOps2_2 (F := Ideal)) W (Proc.devRef .tc main_arg3) = W (Proc.devRef .tc main_arg3)
    ∧ StableHlo.after (hostOps2_2 (F := Ideal)) W (Proc.devRef .tc main_arg4) = W (Proc.devRef .tc main_arg4)
    ∧ StableHlo.after (hostOps2_2 (F := Ideal)) W (Proc.devRef .tc main_arg5) = W (Proc.devRef .tc main_arg5)
    ∧ StableHlo.after (hostOps2_2 (F := Ideal)) W (Proc.devRef .tc main_v0_0) = W (Proc.devRef .tc main_v0_0)
    ∧ StableHlo.after (hostOps2_2 (F := Ideal)) W (Proc.devRef .tc main_v7) = W (Proc.devRef .tc main_v7) := by
  refine ⟨?_, ?_, ?_, ?_, ?_, ?_, ?_⟩ <;> (dsimp only [hostOps2_2]; after_results_simp)

/-! ## After the third region -/

/-- The array the softmax is taken of: the second layer's output with the input features added back. -/
def pre : FVec Ideal S12288x16 .f32 :=
  addf (addf (addf
      (mulf (broadcastInDim S12288x16 ![0, 1] bcast_S12288x1_S12288x16_0_1 (broadcastInDim S12288x1 ![0] bcast_S12288_S12288x1_0 (W (Proc.devRef .tc main_v7))))
        (W (Proc.devRef .tc main_v29)))
      (mulf (broadcastInDim S12288x16 ![0, 1] bcast_S12288x1_S12288x16_0_1 (broadcastInDim S12288x1 ![0] bcast_S12288_S12288x1_0
          (mulf (W (Proc.devRef .tc main_v7)) (W (Proc.devRef .tc main_v7)))))
        (W (Proc.devRef .tc main_v25))))
      (broadcastInDim S12288x16 ![0, 1] bcast_S1x16_S12288x16_0_1 (broadcastInDim S1x16 ![1] bcast_S16_S1x16_1 (W (Proc.devRef .tc main_arg5)))))
    (W (Proc.devRef .tc main_arg1))

set_option maxHeartbeats 2000000 in
/-- The program's result is the column-wise softmax of that array. -/
theorem result_eq : StableHlo.after (hostOps3 (F := Ideal)) W (Proc.devRef .tc main_v52) = Cert.Gcn.softmax0 (pre W) := by
  dsimp only [hostOps3]
  after_results_simp
  rfl

/-- That array, entry by entry. -/
theorem pre_at (j : Fin 12288) (q : Fin 16) :
    pre W (ix2 j q)
      = r_v7 W (ix1 j) * r_v29 W (ix2 j q) + (r_v7 W (ix1 j) * r_v7 W (ix1 j)) * r_v25 W (ix2 j q) + r_arg5 W (ix1 q)
        + r_arg1 W (ix2 j q) := by
  unfold pre
  rw [addf_apply]
  exact congrArg (· + _) (KOps.layer_apply _ _ _ _ _ _ _ _ j q)

end Cert.Gcn.KS

end
-- ==== Proof.Tiles.lean ====
/-
  A sum over 24 consecutive tiles of 512 rows each is the sum over all 12288 rows.

  Row `k` of tile `i` is row `512 · i + k` of the whole; for `i < 24` and `k < 512` that number is below 12288, so taking
  it modulo 12288 changes nothing, and the map `(i, k) ↦ 512 · i + k` is a bijection from pairs (tile, row in the tile)
  onto the rows.  A double sum is a sum over pairs, and a sum is unchanged by a bijection of its index type.
-/
import Mathlib.Algebra.BigOperators.Fin
import Mathlib.Logic.Equiv.Fin.Basic

namespace Cert.Gcn

/-- Pairs (tile, row in the tile) against rows: `(i, k) ↦ k + 512 · i`. -/
def tileEquiv : Fin 24 × Fin 512 ≃ Fin 12288 := finProdFinEquiv.trans (finCongr (by decide))

theorem tileEquiv_val (i : Fin 24) (k : Fin 512) : (tileEquiv (i, k)).val = k.val + 512 * i.val := rfl

theorem sum_tiles {M : Type} [AddCommMonoid M] (f : Fin 12288 → M) :
    ∑ i ∈ Finset.range 24, ∑ k : Fin 512, f ⟨(512 * i + k.val) % 12288, Nat.mod_lt _ (by decide)⟩ = ∑ r : Fin 12288, f r := by
  rw [Finset.sum_range (fun i => ∑ k : Fin 512, f ⟨(512 * i + k.val) % 12288, Nat.mod_lt _ (by decide)⟩),
    ← Equiv.sum_comp tileEquiv f, Fintype.sum_prod_type]
  refine Finset.sum_congr rfl fun i _ => Finset.sum_congr rfl fun k _ => ?_
  congr 1
  apply Fin.ext
  have hi := i.isLt
  have hk := k.isLt
  rw [tileEquiv_val]
  show (512 * i.val + k.val) % 12288 = k.val + 512 * i.val
  rw [Nat.mod_eq_of_lt (by omega)]
  omega

end Cert.Gcn
-- ==== Proof.Reg0.lean ====
/-
  The first device region: the copy of A in the narrower float format, and the column sums of A.

  The region walks a 4 × 24 grid.  At the point (jb, ib) it holds a 512 × 3072 tile of A (rows 512·ib …, columns
  3072·jb …), the matching tile of the copy, and the 1 × 3072 block jb of the row of column sums, which stays in
  place while ib runs.  The body first clears the block of sums when ib = 0, stores the tile with its format changed
  (the identity on the extended reals) into the copy's tile, and adds to the block of sums the sums of the tile's
  columns over its 512 rows.  Every point writes its tile of the copy back, and the tiles tile the array: the copy
  holds A entry by entry (`final_copy`).  After the body at (jb, ib) the block of sums holds zero plus the sum over
  the tile rows met so far of A(r, 3072·jb + p); it is written back after ib = 23, when the sum runs over all 24 row
  tiles, that is over all 12288 rows; the four blocks tile the row.  Hence entry (0, j) of the second output array
  is the sum of column j of A (`final_deg`).
-/
import proofs.«181473_j18975165513738_2_alg».proof.Proof.Gen.KernelIdeal.Frame
import proofs.«181473_j18975165513738_2_alg».proof.Proof.Tiles
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.Gcn.Reg0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

theorem hz : (![0, 0] : Fin 2 → Nat) = fun _ => 0 := funext fun a => by fin_cases a <;> rfl

/-! ## What the body leaves in the two output blocks -/

/-- The copy's tile after a clearing step: the body's one store into it, the input tile with its format changed. -/
theorem out1_A (c : Dev nD) (i : grid0.Coords) (a2 : Memref sig .tc .vmem S512x3072 .f32) (h2 : a2.IsWhole)
    (a3 : Memref sig .tc .vmem S512x3072 .bf16) (h3 : a3.IsWhole) (a4 : Memref sig .tc .vmem S1x3072 .f32) (h4 : a4.IsWhole)
    (hc : cond0_0 i) (x0 : Vec F S512x3072 .f32) :
    out0_A_1 c i a2 h2 a3 h3 a4 h4 hc x0 = k0_pay2 x0 := by
  unfold out0_A_1
  rw [View.read_writes_eq_canon _ _ _ (cover0_A_1 c i a2 h2 a3 h3 a4 h4 hc x0)]
  unfold kernelRun0_A
  dsimp only
  rw [View.canon_unit_zero hz]
  simp only [View.readAt_eq_ld, h2.read_unread, View.ld_unit_zero (S := S512x3072) hz]

/-- The copy's tile after any other step: the same store. -/
theorem out1_B (c : Dev nD) (i : grid0.Coords) (a2 : Memref sig .tc .vmem S512x3072 .f32) (h2 : a2.IsWhole)
    (a3 : Memref sig .tc .vmem S512x3072 .bf16) (h3 : a3.IsWhole) (a4 : Memref sig .tc .vmem S1x3072 .f32) (h4 : a4.IsWhole)
    (hc : ¬cond0_0 i) (x0 : Vec F S512x3072 .f32) (xo : Vec F S1x3072 .f32) :
    out0_B_1 c i a2 h2 a3 h3 a4 h4 hc x0 xo = k0_pay2 x0 := by
  unfold out0_B_1
  rw [View.read_writes_eq_canon _ _ _ (cover0_B_1 c i a2 h2 a3 h3 a4 h4 hc x0 xo)]
  unfold kernelRun0_B
  dsimp only
  rw [View.canon_unit_zero hz]
  simp only [View.readAt_eq_ld, h2.read_unread, View.ld_unit_zero (S := S512x3072) hz]

/-- The zero row the clearing step stores. -/
abbrev zero : Vec F S1x3072 .f32 := k0_pay1

/-- The block of sums after a step that does not clear: over a block holding `xo`, the block plus the tile's column
    sums. -/
theorem out2_B (c : Dev nD) (i : grid0.Coords) (a2 : Memref sig .tc .vmem S512x3072 .f32) (h2 : a2.IsWhole)
    (a3 : Memref sig .tc .vmem S512x3072 .bf16) (h3 : a3.IsWhole) (a4 : Memref sig .tc .vmem S1x3072 .f32) (h4 : a4.IsWhole)
    (hc : ¬cond0_0 i) (x0 : Vec F S512x3072 .f32) (xo : Vec F S1x3072 .f32) :
    out0_B_2 c i a2 h2 a3 h3 a4 h4 hc x0 xo = k0_pay3 x0 xo := by
  unfold out0_B_2
  rw [View.read_writes_eq_canon _ _ _ (cover0_B_2 c i a2 h2 a3 h3 a4 h4 hc x0 xo)]
  unfold kernelRun0_B
  dsimp only
  rw [View.canon_unit_zero hz]
  simp only [View.readAt_eq_ld, h2.read_unread, h4.read_unread, View.ld_unit_zero (S := S512x3072) hz,
    View.ld_unit_zero (S := S1x3072) hz]

/-- The block of sums after a clearing step: the body stores the zero row, reads it back, and leaves zero plus the
    tile's column sums. -/
theorem out2_A (c : Dev nD) (i : grid0.Coords) (a2 : Memref sig .tc .vmem S512x3072 .f32) (h2 : a2.IsWhole)
    (a3 : Memref sig .tc .vmem S512x3072 .bf16) (h3 : a3.IsWhole) (a4 : Memref sig .tc .vmem S1x3072 .f32) (h4 : a4.IsWhole)
    (hc : cond0_0 i) (x0 : Vec F S512x3072 .f32) :
    out0_A_2 c i a2 h2 a3 h3 a4 h4 hc x0 = k0_pay3 x0 zero := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x3072) hz, View.readCov_unit_zero (S := S1x3072) _ hz]
  simp only [View.readAt_eq_ld, h2.read_unread, View.ld_unit_zero (S := S512x3072) hz]

/-- The format change is the identity on the extended reals. -/
theorem pay2_apply (x0 : Vec Ideal S512x3072 .f32) (y : S512x3072.Idx) : k0_pay2 (F := Ideal) x0 y = x0 y := rfl

/-- The sums' payload at an entry: the block's entry plus the sum of column `p` of the tile over its 512 rows. -/
theorem pay3_apply (x0 : Vec Ideal S512x3072 .f32) (xo : Vec Ideal S1x3072 .f32) (u : Fin 1) (p : Fin 3072) :
    k0_pay3 (F := Ideal) x0 xo (ix2 u p) = xo (ix2 u p) + ∑ k : Fin 512, x0 (ix2 k p) := by
  unfold k0_pay3
  show (shapeCast S1x3072 xo _) (ix2 u p) + _ = _
  rw [shapeCast_self]
  congr 1
  refine (shapeCast_a_1a_apply _ _ u p).trans ?_
  refine (Ideal.multiReduction_add_single (φ := .f32) x0 0x00000000#32 reduces_S512x3072_S3072 _ _ (ix1 p)).trans ?_
  show ∑ k : Fin 512, x0 (reduces_S512x3072_S3072.lift (ix1 p) k) = _
  refine Finset.sum_congr rfl fun k _ => ?_
  exact congrArg x0 (funext fun a => Fin.ext (by match a with | ⟨0, _⟩ => rfl | ⟨1, _⟩ => rfl))

/-! ## The tiles, read off the arrays -/

section Blocks

variable (V : (c : Dev nD) → (b : Ref sig .tc) → Buf (Elt F) ((c : Thread nD τ).loc b))

/-- Where the grid point `t = 24·jb + ib` places its tiles: the A tile and the copy's tile at block row `ib`, block
    column `jb`; the block of sums at block column `jb` of the one row. Decided once over the 96 points. -/
theorem idx_facts : ∀ t : Fin cfg0.N, win0_0.index t (0 : Fin 2) = t.val % 24 ∧ win0_0.index t (1 : Fin 2) = t.val / 24
    ∧ win0_1.index t (0 : Fin 2) = t.val % 24 ∧ win0_1.index t (1 : Fin 2) = t.val / 24
    ∧ win0_2.index t (0 : Fin 2) = 0 ∧ win0_2.index t (1 : Fin 2) = t.val / 24 :=
  (by decide +kernel : ∀ t : Fin grid0.N, _)

/-- Entry (k, p) of the A tile at point `t` is entry (512·(t mod 24) + k, 3072·(t div 24) + p) of the array. -/
theorem iblk_A (c : Dev nD) (t : Fin cfg0.N) (k : Fin 512) (p : Fin 3072) (r : Fin 12288) (j : Fin 12288)
    (hr : r.val = 512 * (t.val % 24) + k.val) (hj : j.val = 3072 * (t.val / 24) + p.val) :
    (iblk0 V c 0 t : Vec F S512x3072 .f32) (ix2 k p) = V c main_arg0 (ix2 r j) := by
  obtain ⟨e0, e1, -, -, -, -⟩ := idx_facts t
  unfold iblk0
  rw [View.read_apply]
  show V c main_arg0 (((cfg0.win 0).blk t).view.emb (ix2 k p)) = V c main_arg0 (ix2 r j)
  refine congrArg _ (funext fun a => Fin.ext ?_)
  match a with
  | ⟨0, _⟩ => show win0_0.index t (0 : Fin 2) * 512 + 1 * k.val = r.val; rw [e0, hr]; omega
  | ⟨1, _⟩ => show win0_0.index t (1 : Fin 2) * 3072 + 1 * p.val = j.val; rw [e1, hj]; omega

end Blocks

/-! ## The accumulation over the grid, and the two arrays the region leaves -/

section Acc

variable (V : (c : Dev nD) → (b : Ref sig .tc) → Buf (Elt Ideal) ((c : Thread nD τ).loc b))

/-- Row `512·i + k` of the array (reduced modulo the row count, so that it names a row whatever `i`). -/
def row (i : ℕ) (k : Fin 512) : Fin 12288 := ⟨(512 * i + k.val) % 12288, Nat.mod_lt _ (by decide)⟩

/-- Column `3072·jb + p` of the array (reduced modulo the column count). -/
def col (jb : ℕ) (p : Fin 3072) : Fin 12288 := ⟨(3072 * jb + p.val) % 12288, Nat.mod_lt _ (by decide)⟩

/-- The matrix the region reads, as extended reals. -/
abbrev arrA (c : Dev nD) : S12288x12288.Idx → EReal := V c main_arg0

/-- Row tile `ib`'s contribution to entry `p` of block `jb` of the sums. -/
def term (c : Dev nD) (jb ib : ℕ) (p : Fin 3072) : EReal :=
  ∑ k : Fin 512, arrA V c (ix2 (row ib k) (col jb p))

/-- The column sums of the tile of point `t` are that point's terms. -/
theorem tile_eq_term (c : Dev nD) (t : Fin cfg0.N) (p : Fin 3072)
    (x0 : Vec Ideal S512x3072 .f32) (h0 : x0 = iblk0 V c 0 t) :
    ∑ k : Fin 512, x0 (ix2 k p) = term V c (t.val / 24) (t.val % 24) p := by
  subst h0
  have hN : t.val < 96 := lt_of_lt_of_eq t.isLt (show cfg0.N = 96 from N_0)
  refine Finset.sum_congr rfl fun k _ => ?_
  have hk := k.isLt
  have hp := p.isLt
  rw [iblk_A V c t k p (row (t.val % 24) k) (col (t.val / 24) p) (by show (512 * (t.val % 24) + k.val) % 12288 = _; omega)
      (by show (3072 * (t.val / 24) + p.val) % 12288 = _; omega)]

/-- After the body at point `n` the block of sums holds zero plus the terms of the row tiles met so far in its column
    block: by induction on the point, a clearing step starting the sum and every other step adding a term. -/
theorem outsAt_eq (c : Dev nD) : ∀ (n : ℕ) (h : n < cfg0.N) (u : Fin 1) (p : Fin 3072),
    ((outsAt0 V c n h).2 : Vec Ideal S1x3072 .f32) (ix2 u p)
      = Ideal.ofBits .f32 0x00000000#32 + ∑ i ∈ Finset.range (n % 24 + 1), term V c (n / 24) i p
  | 0, h, u, p => by
    rw [outsAt0_A V c ⟨0, h⟩ rfl]
    dsimp only
    rw [out2_A, pay3_apply, tile_eq_term V c ⟨0, h⟩ p _ rfl]
    show Ideal.ofBits .f32 0x00000000#32 + term V c (0 / 24) (0 % 24) p = _
    rw [Finset.sum_range_one]
  | n + 1, h, u, p => by
    have hN : n + 1 < 96 := lt_of_lt_of_eq h (show cfg0.N = 96 from N_0)
    by_cases h0 : (n + 1) % 24 = 0
    · rw [outsAt0_A V c ⟨n + 1, h⟩ h0]
      dsimp only
      rw [out2_A, pay3_apply, tile_eq_term V c ⟨n + 1, h⟩ p _ rfl]
      show Ideal.ofBits .f32 0x00000000#32 + term V c ((n + 1) / 24) ((n + 1) % 24) p = _
      rw [h0, Finset.sum_range_one]
    · rw [outsAt0_B V c ⟨n + 1, h⟩ h0]
      dsimp only
      rw [out2_B, pay3_apply, tile_eq_term V c ⟨n + 1, h⟩ p _ rfl]
      show ((outsAt0 V c n _).2 : Vec Ideal S1x3072 .f32) (ix2 u p) + term V c ((n + 1) / 24) ((n + 1) % 24) p = _
      rw [outsAt_eq c n _ u p]
      have e1 : (n + 1) % 24 = n % 24 + 1 := by omega
      have e2 : (n + 1) / 24 = n / 24 := by omega
      rw [e1, e2, Finset.sum_range_succ (fun i => term V c (n / 24) i p) (n % 24 + 1), add_assoc]

/-- The row of sums as one function of the array the region reads: entry (0, j) is zero plus, over the 24 row tiles and
    the 512 rows of each, the sum of A(r, j). -/
def G (c : Dev nD) : S1x12288.Idx → EReal := fun y =>
  Ideal.ofBits .f32 0x00000000#32 + ∑ i ∈ Finset.range 24, ∑ k : Fin 512, arrA V c (ix2 (row i k) (y 1))

/-- At a point that writes the sums back, the block's entry `y` is `G` at the array index the block places it at. -/
theorem flushed_at (c : Dev nD) (t : Fin cfg0.N) (h23 : t.val % 24 = 23) (y : S1x3072.Idx) (J : S1x12288.Idx)
    (hJ1 : (J 1).val = 3072 * (t.val / 24) + (y 1).val) :
    ((outsAt0 V c t.val t.isLt).2 : Vec Ideal S1x3072 .f32) y = G V c J := by
  have hN : t.val < 96 := lt_of_lt_of_eq t.isLt (show cfg0.N = 96 from N_0)
  obtain ⟨u, p, rfl⟩ : ∃ (u : Fin 1) (p : Fin 3072), y = ix2 u p := ⟨y 0, y 1, eq_ix2 y⟩
  have hp := p.isLt
  have hc : J 1 = col (t.val / 24) p := Fin.ext (by
    show (J 1).val = (3072 * (t.val / 24) + p.val) % 12288
    rw [hJ1]; show 3072 * (t.val / 24) + p.val = _; omega)
  rw [outsAt_eq V c t.val t.isLt u p, h23]
  unfold G term
  rw [hc]

/-- What a point that writes the sums back writes: block `t div 24` of `G`. -/
theorem flushed_eq (c : Dev nD) (t : Fin cfg0.N) (hf : (cfg0.win 2).flush t = true) :
    (dat0 V c).flushed 2 t = ((cfg0.win 2).blk t).view.read (Elt Ideal) (G V c) := by
  have h23 : t.val % 24 = 23 := (flush0_2 t).mp hf
  obtain ⟨-, -, -, -, e0, e1⟩ := idx_facts t
  show (cfg0.win 2).cut (grid0.coords t) ((dat0 V c).after 2 t) = _
  rw [after0_2]
  funext y
  exact flushed_at V c t h23 y (((cfg0.win 2).blk t).view.emb y)
    (by show win0_2.index t (1 : Fin 2) * 3072 + 1 * (y 1).val = 3072 * (t.val / 24) + (y 1).val; rw [e1]; omega)

/-- Every entry of the row of sums lies in the block of a point that writes back: the last point of its column block. -/
theorem cover (i : S1x12288.Idx) : ∃ t : Fin cfg0.N, (cfg0.win 2).flush t = true ∧ i ∈ ((cfg0.win 2).blk t).view.set := by
  have h0 : (i 0).val < 1 := (i 0).isLt
  have h1 : (i 1).val < 12288 := (i 1).isLt
  obtain ⟨t, ht⟩ : ∃ t : Fin cfg0.N, t.val = 24 * ((i 1).val / 3072) + 23 :=
    ⟨⟨24 * ((i 1).val / 3072) + 23, by rw [show cfg0.N = 96 from N_0]; omega⟩, rfl⟩
  refine ⟨t, (flush0_2 t).mpr (by rw [ht]; omega), ?_⟩
  obtain ⟨-, -, -, -, e0, e1⟩ := idx_facts t
  show i ∈ ((View.whole main_v0_1).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    rw [e0]; omega
  | ⟨1, _⟩ =>
    show win0_2.index t (1 : Fin 2) * 3072 ≤ (i 1).val ∧ (i 1).val < win0_2.index t (1 : Fin 2) * 3072 + 3072
    rw [e1, ht]; omega

/-- The sum over the 24 tiles and their 512 rows is the sum over all rows, and the zero it starts from adds nothing. -/
theorem G_eq (c : Dev nD) : G V c = fun y : S1x12288.Idx => ∑ r : Fin 12288, arrA V c (ix2 r (y 1)) := by
  funext y
  unfold G
  rw [Ideal.ofBits_zero_f32, zero_add]
  exact Cert.Gcn.sum_tiles (fun r : Fin 12288 => arrA V c (ix2 r (y 1)))

/-- The column sums: entry (0, j) of the second output array is the sum of column j of A. -/
theorem final_deg (c : Dev nD) :
    (dat0 V c).arrAt 2 cfg0.N = fun y : S1x12288.Idx => ∑ r : Fin 12288, arrA V c (ix2 r (y 1)) :=
  ((dat0 V c).arrAt_eq_of_cover 2 (G V c) (fun t hf => flushed_eq V c t hf) cover).trans (G_eq V c)

/-! ### The copy -/

/-- At every point the copy's tile is left holding the input tile with its format changed. -/
theorem outs1_eq (c : Dev nD) (t : Fin cfg0.N) :
    (outsAt0 V c t.val t.isLt).1 = k0_pay2 (iblk0 V c 0 t) := by
  by_cases h0 : t.val % 24 = 0
  · rw [outsAt0_A V c t h0]
    dsimp only
    rw [out1_A]
  · rw [outsAt0_B V c t h0]
    dsimp only
    rw [out1_B]

/-- The copy's tile at point `t`, entry `y`, is A at the array index the tile places it at. -/
theorem flushed1_at (c : Dev nD) (t : Fin cfg0.N) (y : S512x3072.Idx) (J : S12288x12288.Idx)
    (hJ0 : (J 0).val = 512 * (t.val % 24) + (y 0).val) (hJ1 : (J 1).val = 3072 * (t.val / 24) + (y 1).val) :
    ((outsAt0 V c t.val t.isLt).1 : Vec Ideal S512x3072 .bf16) y = arrA V c J := by
  obtain ⟨k, p, rfl⟩ : ∃ (k : Fin 512) (p : Fin 3072), y = ix2 k p := ⟨y 0, y 1, eq_ix2 y⟩
  rw [outs1_eq V c t, pay2_apply, iblk_A V c t k p (J 0) (J 1) hJ0 hJ1]
  exact congrArg (arrA V c) (eq_ix2 J).symm

/-- What every point writes back into the copy: its tile of A. -/
theorem flushed1_eq (c : Dev nD) (t : Fin cfg0.N) (hf : (cfg0.win 1).flush t = true) :
    (dat0 V c).flushed 1 t = ((cfg0.win 1).blk t).view.read (Elt Ideal) (arrA V c) := by
  obtain ⟨-, -, e0, e1, -, -⟩ := idx_facts t
  show (cfg0.win 1).cut (grid0.coords t) ((dat0 V c).after 1 t) = _
  rw [after0_1]
  funext y
  exact flushed1_at V c t y (((cfg0.win 1).blk t).view.emb y)
    (by show win0_1.index t (0 : Fin 2) * 512 + 1 * (y 0).val = 512 * (t.val % 24) + (y 0).val; rw [e0]; omega)
    (by show win0_1.index t (1 : Fin 2) * 3072 + 1 * (y 1).val = 3072 * (t.val / 24) + (y 1).val; rw [e1]; omega)

/-- Every entry of the copy lies in the tile of the point at its block column and block row. -/
theorem cover1 (i : S12288x12288.Idx) : ∃ t : Fin cfg0.N, (cfg0.win 1).flush t = true ∧ i ∈ ((cfg0.win 1).blk t).view.set := by
  have h0 : (i 0).val < 12288 := (i 0).isLt
  have h1 : (i 1).val < 12288 := (i 1).isLt
  obtain ⟨t, ht⟩ : ∃ t : Fin cfg0.N, t.val = 24 * ((i 1).val / 3072) + (i 0).val / 512 :=
    ⟨⟨24 * ((i 1).val / 3072) + (i 0).val / 512, by rw [show cfg0.N = 96 from N_0]; omega⟩, rfl⟩
  refine ⟨t, flush0_1 t, ?_⟩
  obtain ⟨-, -, e0, e1, -, -⟩ := idx_facts t
  show i ∈ ((View.whole main_v0_0).slice (win0_1.rect t)).set
  rw [View.set_slice_whole, Rect.mem_set_unit]
  intro a
  match a with
  | ⟨0, _⟩ =>
    show win0_1.index t (0 : Fin 2) * 512 ≤ (i 0).val ∧ (i 0).val < win0_1.index t (0 : Fin 2) * 512 + 512
    rw [e0, ht]; omega
  | ⟨1, _⟩ =>
    show win0_1.index t (1 : Fin 2) * 3072 ≤ (i 1).val ∧ (i 1).val < win0_1.index t (1 : Fin 2) * 3072 + 3072
    rw [e1, ht]; omega

/-- The copy: the region's first output array holds A entry by entry (the format change is the identity). -/
theorem final_copy (c : Dev nD) : (dat0 V c).arrAt 1 cfg0.N = (arrA V c : S12288x12288.Idx → EReal) :=
  (dat0 V c).arrAt_eq_of_cover 1 (arrA V c) (fun t hf => flushed1_eq V c t hf) cover1

end Acc

end Cert.Gcn.Reg0

end
-- ==== Proof.LibDotT.lean ====
/-
  A matrix product whose left operand is read transposed, at an index, on the extended reals.

  For a contraction × rows by contraction × columns product — the dimension numbers that contract the FIRST axis of both
  operands, with no batch axis, so that the left operand enters transposed without a transpose being materialized — the
  entry at (i, j) of a `tpu.matmul` accumulated into the zero splat, and of the host's `dot_general`, is the plain sum
  over the contraction coordinate k of l (k, i) · r (k, j). The sum over the product's own contraction index is
  re-indexed through the bijection between a one-axis contraction index and its coordinate; the operand indices are
  computed from the dimension numbers. Nothing here needs finiteness: the sum is only re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of column `y 0` of `l` with column `y 1` of `r`: the sum over the product's contraction index is
    the sum over the one contracted coordinate, the first of both operands. -/
theorem sum_lhsT (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : (⟨2, ![K, M]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 k (y 0)) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[0], [0], [1], [1], [], [], wf⟩ : DotDims ⟨2, ![K, M]⟩ ⟨2, ![K, N]⟩ ⟨2, ![M, N]⟩) K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  have el : DotDims.lhsIdx (⟨[0], [0], [1], [1], [], [], wf⟩ : DotDims ⟨2, ![K, M]⟩ ⟨2, ![K, N]⟩ ⟨2, ![M, N]⟩) y
      ((contrEquiv1 (⟨[0], [0], [1], [1], [], [], wf⟩ : DotDims ⟨2, ![K, M]⟩ ⟨2, ![K, N]⟩ ⟨2, ![M, N]⟩) K rfl rfl).symm k)
      = ix2 k (y 0) := funext fun a => Fin.ext (by
    match a with
    | ⟨0, _⟩ => exact (DotDims.lhsIdx_val_of_single _ rfl y _).trans hk
    | ⟨1, _⟩ =>
      unfold DotDims.lhsIdx
      rw [dif_neg (by simp), dif_pos (by simp)]
      rfl)
  have er : DotDims.rhsIdx (⟨[0], [0], [1], [1], [], [], wf⟩ : DotDims ⟨2, ![K, M]⟩ ⟨2, ![K, N]⟩ ⟨2, ![M, N]⟩) y
      ((contrEquiv1 (⟨[0], [0], [1], [1], [], [], wf⟩ : DotDims ⟨2, ![K, M]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- A `tpu.matmul` of those dimension numbers into the zero accumulator, at an index: the sum over the contracted
    coordinate. -/
theorem matmul_zero_lhsT_apply (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![K, M]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 k (y 0)) * r (ix2 k (y 1)) := by
  rw [Ideal.matmul_constant_zero_apply]
  exact sum_lhsT d hlc hrc hln hrn hlb hrb l r y

/-- The host's `dot_general` of those dimension numbers, at an index: the same sum. -/
theorem dotGeneral_lhsT_apply (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (sched : HostSchedule)
    (l : FVec Ideal ⟨2, ![K, M]⟩ φ₁) (r : FVec Ideal ⟨2, ![K, N]⟩ φ₂) (y : (⟨2, ![M, N]⟩ : Shape).Idx) :
    FloatOps.dotGeneral d prec sched l r y = ∑ k : Fin K, l (ix2 k (y 0)) * r (ix2 k (y 1)) := by
  rw [Ideal.dotGeneral_apply]
  exact sum_lhsT d hlc hrc hln hrn hlb hrb l r y

end Cert.LibDotT

end
-- ==== Proof.Reg1.lean ====
/-
  The second device region: one tile step of Out = Aᵀ · Y.

  The region walks a 4 × 24 grid.  At the point (jb, ib) it holds a 512 × 3072 tile of A (rows 512·ib …, columns
  3072·jb …), the matching 512 × 256 tile of Y, and the 3072 × 256 block jb of the output, which stays in place while
  ib runs.  The body first clears the output block when ib = 0, then adds to it the product of the transposed A tile
  with the Y tile, contracting the 512 tile rows.  So after the body at (jb, ib) the block holds zero plus the sum
  over the tile rows met so far of A(r, 3072·jb + p) · Y(r, q).  The block is written back after ib = 23, when the sum
  runs over all 24 row tiles; the four blocks tile the output array.  Hence the array the region leaves: entry (j, q) is
  zero plus the sum over the 24 tiles and their 512 rows of A(r, j) · Y(r, q)  (`final`).
-/
import proofs.«181473_j18975165513738_2_alg».proof.Proof.Gen.KernelIdeal.Frame
import proofs.«181473_j18975165513738_2_alg».proof.Proof.LibDotT
import Idealize.ShloMosaic.Lib.Pipeline.Value
import Idealize.ShloMosaic.Lib.ValueIdx
import Idealize.ShloMosaic.Lib.Tactic

set_option maxRecDepth 16384

noncomputable section

namespace Cert.Gcn.Reg1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

theorem hz : (![0, 0] : Fin 2 → Nat) = fun _ => 0 := funext fun a => by fin_cases a <;> rfl

/-- A step that does not clear: over an output block holding `xo`, the body leaves its one store's payload, the block
    plus the tile product. -/
theorem out_B (c : Dev nD) (i : grid1.Coords) (a2 : Memref sig .tc .vmem S512x3072 .bf16) (h2 : a2.IsWhole)
    (a3 : Memref sig .tc .vmem S512x256 .f32) (h3 : a3.IsWhole) (a4 : Memref sig .tc .vmem S3072x256 .f32) (h4 : a4.IsWhole)
    (hc : ¬cond1_0 i) (x0 : Vec F S512x3072 .bf16) (x1 : Vec F S512x256 .f32) (xo : Vec F S3072x256 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S512x3072) hz,
    View.ld_unit_zero (S := S512x256) hz, View.ld_unit_zero (S := S3072x256) hz]

/-- The zero block the clearing step stores. -/
abbrev zero : Vec F S3072x256 .f32 := k1_pay1

/-- A step that clears: the body stores the zero block, reads it back, and leaves zero plus the tile product. -/
theorem out_A (c : Dev nD) (i : grid1.Coords) (a2 : Memref sig .tc .vmem S512x3072 .bf16) (h2 : a2.IsWhole)
    (a3 : Memref sig .tc .vmem S512x256 .f32) (h3 : a3.IsWhole) (a4 : Memref sig .tc .vmem S3072x256 .f32) (h4 : a4.IsWhole)
    (hc : cond1_0 i) (x0 : Vec F S512x3072 .bf16) (x1 : Vec F S512x256 .f32) :
    out1_A_2 c i a2 h2 a3 h3 a4 h4 hc x0 x1 = k1_pay2 x0 x1 zero := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S3072x256) hz, View.readCov_unit_zero (S := S3072x256) _ hz]
  simp only [View.readAt_eq_ld, h2.read_unread, h3.read_unread, View.ld_unit_zero (S := S512x3072) hz,
    View.ld_unit_zero (S := S512x256) hz]

/-- The payload at an entry: the block's entry plus the contraction of column `p` of the A tile with column `q` of
    the Y tile over the 512 tile rows (the format changes are the identity on the extended reals). -/
theorem pay2_apply (x0 : Vec Ideal S512x3072 .bf16) (x1 : Vec Ideal S512x256 .f32) (xo : Vec Ideal S3072x256 .f32)
    (p : Fin 3072) (q : Fin 256) :
    k1_pay2 (F := Ideal) x0 x1 xo (ix2 p q) = xo (ix2 p q) + ∑ k : Fin 512, x0 (ix2 k p) * x1 (ix2 k q) := by
  unfold k1_pay2
  show (shapeCast S3072x256 xo _) (ix2 p q) + _ = _
  rw [shapeCast_self]
  congr 1
  refine (Cert.LibDotT.matmul_zero_lhsT_apply (M := 3072) (K := 512) (N := 256) dot_S512x3072_S512x256_S3072x256_0_0_1_1_n_n rfl rfl rfl rfl rfl rfl none _ _ (ix2 p q)).trans ?_
  refine Finset.sum_congr rfl fun k _ => ?_
  simp only [shapeCast_self]
  rfl

/-! ## The tiles, read off the arrays -/

section Blocks

variable (V : (c : Dev nD) → (b : Ref sig .tc) → Buf (Elt F) ((c : Thread nD τ).loc b))

/-- Where the grid point `t = 24·jb + ib` places its tiles: the A tile at block row `ib`, block column `jb`; the Y
    tile at block row `ib`; the output block at block row `jb`. Decided once over the 96 points. -/
theorem idx_facts : ∀ t : Fin cfg1.N, win1_0.index t (0 : Fin 2) = t.val % 24 ∧ win1_0.index t (1 : Fin 2) = t.val / 24
    ∧ win1_1.index t (0 : Fin 2) = t.val % 24 ∧ win1_1.index t (1 : Fin 2) = 0
    ∧ win1_2.index t (0 : Fin 2) = t.val / 24 ∧ win1_2.index t (1 : Fin 2) = 0 :=
  (by decide +kernel : ∀ t : Fin grid1.N, _)

/-- Entry (k, p) of the A tile at point `t` is entry (512·(t mod 24) + k, 3072·(t div 24) + p) of the first array. -/
theorem iblk_A (c : Dev nD) (t : Fin cfg1.N) (k : Fin 512) (p : Fin 3072) (r : Fin 12288) (j : Fin 12288)
    (hr : r.val = 512 * (t.val % 24) + k.val) (hj : j.val = 3072 * (t.val / 24) + p.val) :
    (iblk1 V c 0 t : Vec F S512x3072 .bf16) (ix2 k p) = V c main_v0_0 (ix2 r j) := by
  obtain ⟨e0, e1, -, -, -, -⟩ := idx_facts t
  unfold iblk1
  rw [View.read_apply]
  show V c main_v0_0 (((cfg1.win 0).blk t).view.emb (ix2 k p)) = V c main_v0_0 (ix2 r j)
  refine congrArg _ (funext fun a => Fin.ext ?_)
  match a with
  | ⟨0, _⟩ => show win1_0.index t (0 : Fin 2) * 512 + 1 * k.val = r.val; rw [e0, hr]; omega
  | ⟨1, _⟩ => show win1_0.index t (1 : Fin 2) * 3072 + 1 * p.val = j.val; rw [e1, hj]; omega

/-- Entry (k, q) of the Y tile at point `t` is entry (512·(t mod 24) + k, q) of the second array. -/
theorem iblk_Y (c : Dev nD) (t : Fin cfg1.N) (k : Fin 512) (q : Fin 256) (r : Fin 12288)
    (hr : r.val = 512 * (t.val % 24) + k.val) :
    (iblk1 V c 1 t : Vec F S512x256 .f32) (ix2 k q) = V c main_v11 (ix2 r q) := by
  obtain ⟨-, -, e0, e1, -, -⟩ := idx_facts t
  unfold iblk1
  rw [View.read_apply]
  show V c main_v11 (((cfg1.win 1).blk t).view.emb (ix2 k q)) = V c main_v11 (ix2 r q)
  refine congrArg _ (funext fun a => Fin.ext ?_)
  match a with
  | ⟨0, _⟩ => show win1_1.index t (0 : Fin 2) * 512 + 1 * k.val = r.val; rw [e0, hr]; omega
  | ⟨1, _⟩ => show win1_1.index t (1 : Fin 2) * 256 + 1 * q.val = q.val; rw [e1]; omega

end Blocks

/-! ## The accumulation over the grid -/

section Acc

variable (V : (c : Dev nD) → (b : Ref sig .tc) → Buf (Elt Ideal) ((c : Thread nD τ).loc b))

/-- Row `512·i + k` of the arrays (reduced modulo the row count, so that it names a row whatever `i`). -/
def row (i : ℕ) (k : Fin 512) : Fin 12288 := ⟨(512 * i + k.val) % 12288, Nat.mod_lt _ (by decide)⟩

/-- Column `3072·jb + p` of the first array (reduced modulo the column count). -/
def col (jb : ℕ) (p : Fin 3072) : Fin 12288 := ⟨(3072 * jb + p.val) % 12288, Nat.mod_lt _ (by decide)⟩

/-- The first array the region reads (the matrix A), as extended reals. -/
abbrev arrA (c : Dev nD) : S12288x12288.Idx → EReal := V c main_v0_0

/-- The second array the region reads (the features Y), as extended reals. -/
abbrev arrY (c : Dev nD) : S12288x256.Idx → EReal := V c main_v11

/-- Row tile `ib`'s contribution to entry (p, q) of output block `jb`. -/
def term (c : Dev nD) (jb ib : ℕ) (p : Fin 3072) (q : Fin 256) : EReal :=
  ∑ k : Fin 512, arrA V c (ix2 (row ib k) (col jb p)) * arrY V c (ix2 (row ib k) q)

/-- The contraction of the two tiles of point `t` is that point's term. -/
theorem tiles_eq_term (c : Dev nD) (t : Fin cfg1.N) (p : Fin 3072) (q : Fin 256)
    (x0 : Vec Ideal S512x3072 .bf16) (x1 : Vec Ideal S512x256 .f32) (h0 : x0 = iblk1 V c 0 t) (h1 : x1 = iblk1 V c 1 t) :
    ∑ k : Fin 512, x0 (ix2 k p) * x1 (ix2 k q) = term V c (t.val / 24) (t.val % 24) p q := by
  subst h0 h1
  have hN : t.val < 96 := lt_of_lt_of_eq t.isLt (show cfg1.N = 96 from N_1)
  refine Finset.sum_congr rfl fun k _ => ?_
  have hk := k.isLt
  have hp := p.isLt
  rw [iblk_A V c t k p (row (t.val % 24) k) (col (t.val / 24) p) (by show (512 * (t.val % 24) + k.val) % 12288 = _; omega)
      (by show (3072 * (t.val / 24) + p.val) % 12288 = _; omega),
    iblk_Y V c t k q (row (t.val % 24) k) (by show (512 * (t.val % 24) + k.val) % 12288 = _; omega)]

/-- After the body at point `n` the output block holds zero plus the terms of the row tiles met so far in its
    column block: by induction on the point, a clearing step starting the sum and every other step adding a term. -/
theorem outsAt_eq (c : Dev nD) : ∀ (n : ℕ) (h : n < cfg1.N) (p : Fin 3072) (q : Fin 256),
    (outsAt1 V c n h : Vec Ideal S3072x256 .f32) (ix2 p q)
      = Ideal.ofBits .f32 0x00000000#32 + ∑ i ∈ Finset.range (n % 24 + 1), term V c (n / 24) i p q
  | 0, h, p, q => by
    rw [outsAt1_A V c ⟨0, h⟩ rfl, out_A, pay2_apply, tiles_eq_term V c ⟨0, h⟩ p q _ _ rfl rfl]
    show Ideal.ofBits .f32 0x00000000#32 + term V c (0 / 24) (0 % 24) p q = _
    rw [Finset.sum_range_one]
  | n + 1, h, p, q => by
    have hN : n + 1 < 96 := lt_of_lt_of_eq h (show cfg1.N = 96 from N_1)
    by_cases h0 : (n + 1) % 24 = 0
    · rw [outsAt1_A V c ⟨n + 1, h⟩ h0, out_A, pay2_apply, tiles_eq_term V c ⟨n + 1, h⟩ p q _ _ rfl rfl]
      show Ideal.ofBits .f32 0x00000000#32 + term V c ((n + 1) / 24) ((n + 1) % 24) p q = _
      rw [h0, Finset.sum_range_one]
    · rw [outsAt1_B V c ⟨n + 1, h⟩ h0, out_B, pay2_apply, tiles_eq_term V c ⟨n + 1, h⟩ p q _ _ rfl rfl]
      show (outsAt1 V c n _ : Vec Ideal S3072x256 .f32) (ix2 p q) + term V c ((n + 1) / 24) ((n + 1) % 24) p q = _
      rw [outsAt_eq c n _ p q]
      have e1 : (n + 1) % 24 = n % 24 + 1 := by omega
      have e2 : (n + 1) / 24 = n / 24 := by omega
      rw [e1, e2, Finset.sum_range_succ (fun i => term V c (n / 24) i p q) (n % 24 + 1), add_assoc]

/-- The region's result as one function of the two arrays it reads: entry (j, q) is zero plus, over the 24 row
    tiles and the 512 rows of each, the sum of A(r, j) · Y(r, q). -/
def G (c : Dev nD) : S12288x256.Idx → EReal := fun y =>
  Ideal.ofBits .f32 0x00000000#32 + ∑ i ∈ Finset.range 24, ∑ k : Fin 512,
    arrA V c (ix2 (row i k) (y 0)) * arrY V c (ix2 (row i k) (y 1))

/-- At a point that writes back, the block's entry `y` is `G` at the array index the block places it at. -/
theorem flushed_at (c : Dev nD) (t : Fin cfg1.N) (h23 : t.val % 24 = 23) (y : S3072x256.Idx) (J : S12288x256.Idx)
    (hJ0 : (J 0).val = 3072 * (t.val / 24) + (y 0).val) (hJ1 : J 1 = y 1) :
    (outsAt1 V c t.val t.isLt : Vec Ideal S3072x256 .f32) y = G V c J := by
  have hN : t.val < 96 := lt_of_lt_of_eq t.isLt (show cfg1.N = 96 from N_1)
  obtain ⟨p, q, rfl⟩ : ∃ (p : Fin 3072) (q : Fin 256), y = ix2 p q := ⟨y 0, y 1, eq_ix2 y⟩
  have hp := p.isLt
  have hc : J 0 = col (t.val / 24) p := Fin.ext (by
    show (J 0).val = (3072 * (t.val / 24) + p.val) % 12288
    rw [hJ0]; show 3072 * (t.val / 24) + p.val = _; omega)
  have hq : J 1 = q := hJ1
  rw [outsAt_eq V c t.val t.isLt p q, h23]
  unfold G term
  rw [hc, hq]

/-- What a point that writes back writes: block `t div 24` of `G`. -/
theorem flushed_eq (c : Dev nD) (t : Fin cfg1.N) (hf : (cfg1.win 2).flush t = true) :
    (dat1 V c).flushed 2 t = ((cfg1.win 2).blk t).view.read (Elt Ideal) (G V c) := by
  have h23 : t.val % 24 = 23 := (flush1_2 t).mp hf
  obtain ⟨-, -, -, -, e0, e1⟩ := idx_facts t
  show (cfg1.win 2).cut (grid1.coords t) ((dat1 V c).after 2 t) = _
  rw [after1_2]
  funext y
  exact flushed_at V c t h23 y (((cfg1.win 2).blk t).view.emb y)
    (by show win1_2.index t (0 : Fin 2) * 3072 + 1 * (y 0).val = 3072 * (t.val / 24) + (y 0).val; rw [e0]; omega)
    (Fin.ext (by show win1_2.index t (1 : Fin 2) * 256 + 1 * (y 1).val = (y 1).val; rw [e1]; omega))

/-- Every entry of the result lies in the block of a point that writes back: the last point of its column block. -/
theorem cover (i : S12288x256.Idx) : ∃ t : Fin cfg1.N, (cfg1.win 2).flush t = true ∧ i ∈ ((cfg1.win 2).blk t).view.set := by
  have h0 : (i 0).val < 12288 := (i 0).isLt
  have h1 : (i 1).val < 256 := (i 1).isLt
  obtain ⟨t, ht⟩ : ∃ t : Fin cfg1.N, t.val = 24 * ((i 0).val / 3072) + 23 :=
    ⟨⟨24 * ((i 0).val / 3072) + 23, by rw [show cfg1.N = 96 from N_1]; omega⟩, rfl⟩
  refine ⟨t, (flush1_2 t).mpr (by rw [ht]; omega), ?_⟩
  obtain ⟨-, -, -, -, e0, e1⟩ := idx_facts t
  show i ∈ ((View.whole main_v12).slice (win1_2.rect t)).set
  rw [View.set_slice_whole, Rect.mem_set_unit]
  intro a
  match a with
  | ⟨0, _⟩ =>
    show win1_2.index t (0 : Fin 2) * 3072 ≤ (i 0).val ∧ (i 0).val < win1_2.index t (0 : Fin 2) * 3072 + 3072
    rw [e0, ht]; omega
  | ⟨1, _⟩ =>
    show win1_2.index t (1 : Fin 2) * 256 ≤ (i 1).val ∧ (i 1).val < win1_2.index t (1 : Fin 2) * 256 + 256
    rw [e1]; omega

/-- The region's output array after the region: `G` of the arrays it found. -/
theorem final (c : Dev nD) : (dat1 V c).arrAt 2 cfg1.N = G V c :=
  (dat1 V c).arrAt_eq_of_cover 2 (G V c) (fun t hf => flushed_eq V c t hf) cover

end Acc

end Cert.Gcn.Reg1

end
-- ==== Proof.Reg2.lean ====
/-
  The third device region: one tile step of Out = Aᵀ · Y, at width 16.

  The region walks a 4 × 24 grid.  At the point (jb, ib) it holds a 512 × 3072 tile of A (rows 512·ib …, columns
  3072·jb …), the matching 512 × 16 tile of Y, and the 3072 × 16 block jb of the output, which stays in place while
  ib runs.  The body first clears the output block when ib = 0, then adds to it the product of the transposed A tile
  with the Y tile, contracting the 512 tile rows.  So after the body at (jb, ib) the block holds zero plus the sum
  over the tile rows met so far of A(r, 3072·jb + p) · Y(r, q).  The block is written back after ib = 23, when the sum
  runs over all 24 row tiles; the four blocks tile the output array.  Hence the array the region leaves: entry (j, q) is
  zero plus the sum over the 24 tiles and their 512 rows of A(r, j) · Y(r, q)  (`final`).
-/
import proofs.«181473_j18975165513738_2_alg».proof.Proof.Gen.KernelIdeal.Frame
import proofs.«181473_j18975165513738_2_alg».proof.Proof.LibDotT
import Idealize.ShloMosaic.Lib.Pipeline.Value
import Idealize.ShloMosaic.Lib.ValueIdx
import Idealize.ShloMosaic.Lib.Tactic

set_option maxRecDepth 16384

noncomputable section

namespace Cert.Gcn.Reg2

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

theorem hz : (![0, 0] : Fin 2 → Nat) = fun _ => 0 := funext fun a => by fin_cases a <;> rfl

/-- A step that does not clear: over an output block holding `xo`, the body leaves its one store's payload, the block
    plus the tile product. -/
theorem out_B (c : Dev nD) (i : grid2.Coords) (a2 : Memref sig .tc .vmem S512x3072 .bf16) (h2 : a2.IsWhole)
    (a3 : Memref sig .tc .vmem S512x16 .f32) (h3 : a3.IsWhole) (a4 : Memref sig .tc .vmem S3072x16 .f32) (h4 : a4.IsWhole)
    (hc : ¬cond2_0 i) (x0 : Vec F S512x3072 .bf16) (x1 : Vec F S512x16 .f32) (xo : Vec F S3072x16 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  rw [View.canon_unit_zero hz]
  simp only [View.readAt_eq_ld, h2.read_unread, h3.read_unread, h4.read_unread, View.ld_unit_zero (S := S512x3072) hz,
    View.ld_unit_zero (S := S512x16) hz, View.ld_unit_zero (S := S3072x16) hz]

/-- The zero block the clearing step stores. -/
abbrev zero : Vec F S3072x16 .f32 := k2_pay1

/-- A step that clears: the body stores the zero block, reads it back, and leaves zero plus the tile product. -/
theorem out_A (c : Dev nD) (i : grid2.Coords) (a2 : Memref sig .tc .vmem S512x3072 .bf16) (h2 : a2.IsWhole)
    (a3 : Memref sig .tc .vmem S512x16 .f32) (h3 : a3.IsWhole) (a4 : Memref sig .tc .vmem S3072x16 .f32) (h4 : a4.IsWhole)
    (hc : cond2_0 i) (x0 : Vec F S512x3072 .bf16) (x1 : Vec F S512x16 .f32) :
    out2_A_2 c i a2 h2 a3 h3 a4 h4 hc x0 x1 = k2_pay2 x0 x1 zero := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S3072x16) hz, View.readCov_unit_zero (S := S3072x16) _ hz]
  simp only [View.readAt_eq_ld, h2.read_unread, h3.read_unread, View.ld_unit_zero (S := S512x3072) hz,
    View.ld_unit_zero (S := S512x16) hz]

/-- The payload at an entry: the block's entry plus the contraction of column `p` of the A tile with column `q` of
    the Y tile over the 512 tile rows (the format changes are the identity on the extended reals). -/
theorem pay2_apply (x0 : Vec Ideal S512x3072 .bf16) (x1 : Vec Ideal S512x16 .f32) (xo : Vec Ideal S3072x16 .f32)
    (p : Fin 3072) (q : Fin 16) :
    k2_pay2 (F := Ideal) x0 x1 xo (ix2 p q) = xo (ix2 p q) + ∑ k : Fin 512, x0 (ix2 k p) * x1 (ix2 k q) := by
  unfold k2_pay2
  show (shapeCast S3072x16 xo _) (ix2 p q) + _ = _
  rw [shapeCast_self]
  congr 1
  refine (Cert.LibDotT.matmul_zero_lhsT_apply (M := 3072) (K := 512) (N := 16) dot_S512x3072_S512x16_S3072x16_0_0_1_1_n_n rfl rfl rfl rfl rfl rfl none _ _ (ix2 p q)).trans ?_
  refine Finset.sum_congr rfl fun k _ => ?_
  simp only [shapeCast_self]
  rfl

/-! ## The tiles, read off the arrays -/

section Blocks

variable (V : (c : Dev nD) → (b : Ref sig .tc) → Buf (Elt F) ((c : Thread nD τ).loc b))

/-- Where the grid point `t = 24·jb + ib` places its tiles: the A tile at block row `ib`, block column `jb`; the Y
    tile at block row `ib`; the output block at block row `jb`. Decided once over the 96 points. -/
theorem idx_facts : ∀ t : Fin cfg2.N, win2_0.index t (0 : Fin 2) = t.val % 24 ∧ win2_0.index t (1 : Fin 2) = t.val / 24
    ∧ win2_1.index t (0 : Fin 2) = t.val % 24 ∧ win2_1.index t (1 : Fin 2) = 0
    ∧ win2_2.index t (0 : Fin 2) = t.val / 24 ∧ win2_2.index t (1 : Fin 2) = 0 :=
  (by decide +kernel : ∀ t : Fin grid2.N, _)

/-- Entry (k, p) of the A tile at point `t` is entry (512·(t mod 24) + k, 3072·(t div 24) + p) of the first array. -/
theorem iblk_A (c : Dev nD) (t : Fin cfg2.N) (k : Fin 512) (p : Fin 3072) (r : Fin 12288) (j : Fin 12288)
    (hr : r.val = 512 * (t.val % 24) + k.val) (hj : j.val = 3072 * (t.val / 24) + p.val) :
    (iblk2 V c 0 t : Vec F S512x3072 .bf16) (ix2 k p) = V c main_v0_0 (ix2 r j) := by
  obtain ⟨e0, e1, -, -, -, -⟩ := idx_facts t
  unfold iblk2
  rw [View.read_apply]
  show V c main_v0_0 (((cfg2.win 0).blk t).view.emb (ix2 k p)) = V c main_v0_0 (ix2 r j)
  refine congrArg _ (funext fun a => Fin.ext ?_)
  match a with
  | ⟨0, _⟩ => show win2_0.index t (0 : Fin 2) * 512 + 1 * k.val = r.val; rw [e0, hr]; omega
  | ⟨1, _⟩ => show win2_0.index t (1 : Fin 2) * 3072 + 1 * p.val = j.val; rw [e1, hj]; omega

/-- Entry (k, q) of the Y tile at point `t` is entry (512·(t mod 24) + k, q) of the second array. -/
theorem iblk_Y (c : Dev nD) (t : Fin cfg2.N) (k : Fin 512) (q : Fin 16) (r : Fin 12288)
    (hr : r.val = 512 * (t.val % 24) + k.val) :
    (iblk2 V c 1 t : Vec F S512x16 .f32) (ix2 k q) = V c main_v28 (ix2 r q) := by
  obtain ⟨-, -, e0, e1, -, -⟩ := idx_facts t
  unfold iblk2
  rw [View.read_apply]
  show V c main_v28 (((cfg2.win 1).blk t).view.emb (ix2 k q)) = V c main_v28 (ix2 r q)
  refine congrArg _ (funext fun a => Fin.ext ?_)
  match a with
  | ⟨0, _⟩ => show win2_1.index t (0 : Fin 2) * 512 + 1 * k.val = r.val; rw [e0, hr]; omega
  | ⟨1, _⟩ => show win2_1.index t (1 : Fin 2) * 16 + 1 * q.val = q.val; rw [e1]; omega

end Blocks

/-! ## The accumulation over the grid -/

section Acc

variable (V : (c : Dev nD) → (b : Ref sig .tc) → Buf (Elt Ideal) ((c : Thread nD τ).loc b))

/-- Row `512·i + k` of the arrays (reduced modulo the row count, so that it names a row whatever `i`). -/
def row (i : ℕ) (k : Fin 512) : Fin 12288 := ⟨(512 * i + k.val) % 12288, Nat.mod_lt _ (by decide)⟩

/-- Column `3072·jb + p` of the first array (reduced modulo the column count). -/
def col (jb : ℕ) (p : Fin 3072) : Fin 12288 := ⟨(3072 * jb + p.val) % 12288, Nat.mod_lt _ (by decide)⟩

/-- The first array the region reads (the matrix A), as extended reals. -/
abbrev arrA (c : Dev nD) : S12288x12288.Idx → EReal := V c main_v0_0

/-- The second array the region reads (the features Y), as extended reals. -/
abbrev arrY (c : Dev nD) : S12288x16.Idx → EReal := V c main_v28

/-- Row tile `ib`'s contribution to entry (p, q) of output block `jb`. -/
def term (c : Dev nD) (jb ib : ℕ) (p : Fin 3072) (q : Fin 16) : EReal :=
  ∑ k : Fin 512, arrA V c (ix2 (row ib k) (col jb p)) * arrY V c (ix2 (row ib k) q)

/-- The contraction of the two tiles of point `t` is that point's term. -/
theorem tiles_eq_term (c : Dev nD) (t : Fin cfg2.N) (p : Fin 3072) (q : Fin 16)
    (x0 : Vec Ideal S512x3072 .bf16) (x1 : Vec Ideal S512x16 .f32) (h0 : x0 = iblk2 V c 0 t) (h1 : x1 = iblk2 V c 1 t) :
    ∑ k : Fin 512, x0 (ix2 k p) * x1 (ix2 k q) = term V c (t.val / 24) (t.val % 24) p q := by
  subst h0 h1
  have hN : t.val < 96 := lt_of_lt_of_eq t.isLt (show cfg2.N = 96 from N_2)
  refine Finset.sum_congr rfl fun k _ => ?_
  have hk := k.isLt
  have hp := p.isLt
  rw [iblk_A V c t k p (row (t.val % 24) k) (col (t.val / 24) p) (by show (512 * (t.val % 24) + k.val) % 12288 = _; omega)
      (by show (3072 * (t.val / 24) + p.val) % 12288 = _; omega),
    iblk_Y V c t k q (row (t.val % 24) k) (by show (512 * (t.val % 24) + k.val) % 12288 = _; omega)]

/-- After the body at point `n` the output block holds zero plus the terms of the row tiles met so far in its
    column block: by induction on the point, a clearing step starting the sum and every other step adding a term. -/
theorem outsAt_eq (c : Dev nD) : ∀ (n : ℕ) (h : n < cfg2.N) (p : Fin 3072) (q : Fin 16),
    (outsAt2 V c n h : Vec Ideal S3072x16 .f32) (ix2 p q)
      = Ideal.ofBits .f32 0x00000000#32 + ∑ i ∈ Finset.range (n % 24 + 1), term V c (n / 24) i p q
  | 0, h, p, q => by
    rw [outsAt2_A V c ⟨0, h⟩ rfl, out_A, pay2_apply, tiles_eq_term V c ⟨0, h⟩ p q _ _ rfl rfl]
    show Ideal.ofBits .f32 0x00000000#32 + term V c (0 / 24) (0 % 24) p q = _
    rw [Finset.sum_range_one]
  | n + 1, h, p, q => by
    have hN : n + 1 < 96 := lt_of_lt_of_eq h (show cfg2.N = 96 from N_2)
    by_cases h0 : (n + 1) % 24 = 0
    · rw [outsAt2_A V c ⟨n + 1, h⟩ h0, out_A, pay2_apply, tiles_eq_term V c ⟨n + 1, h⟩ p q _ _ rfl rfl]
      show Ideal.ofBits .f32 0x00000000#32 + term V c ((n + 1) / 24) ((n + 1) % 24) p q = _
      rw [h0, Finset.sum_range_one]
    · rw [outsAt2_B V c ⟨n + 1, h⟩ h0, out_B, pay2_apply, tiles_eq_term V c ⟨n + 1, h⟩ p q _ _ rfl rfl]
      show (outsAt2 V c n _ : Vec Ideal S3072x16 .f32) (ix2 p q) + term V c ((n + 1) / 24) ((n + 1) % 24) p q = _
      rw [outsAt_eq c n _ p q]
      have e1 : (n + 1) % 24 = n % 24 + 1 := by omega
      have e2 : (n + 1) / 24 = n / 24 := by omega
      rw [e1, e2, Finset.sum_range_succ (fun i => term V c (n / 24) i p q) (n % 24 + 1), add_assoc]

/-- The region's result as one function of the two arrays it reads: entry (j, q) is zero plus, over the 24 row
    tiles and the 512 rows of each, the sum of A(r, j) · Y(r, q). -/
def G (c : Dev nD) : S12288x16.Idx → EReal := fun y =>
  Ideal.ofBits .f32 0x00000000#32 + ∑ i ∈ Finset.range 24, ∑ k : Fin 512,
    arrA V c (ix2 (row i k) (y 0)) * arrY V c (ix2 (row i k) (y 1))

/-- At a point that writes back, the block's entry `y` is `G` at the array index the block places it at. -/
theorem flushed_at (c : Dev nD) (t : Fin cfg2.N) (h23 : t.val % 24 = 23) (y : S3072x16.Idx) (J : S12288x16.Idx)
    (hJ0 : (J 0).val = 3072 * (t.val / 24) + (y 0).val) (hJ1 : J 1 = y 1) :
    (outsAt2 V c t.val t.isLt : Vec Ideal S3072x16 .f32) y = G V c J := by
  have hN : t.val < 96 := lt_of_lt_of_eq t.isLt (show cfg2.N = 96 from N_2)
  obtain ⟨p, q, rfl⟩ : ∃ (p : Fin 3072) (q : Fin 16), y = ix2 p q := ⟨y 0, y 1, eq_ix2 y⟩
  have hp := p.isLt
  have hc : J 0 = col (t.val / 24) p := Fin.ext (by
    show (J 0).val = (3072 * (t.val / 24) + p.val) % 12288
    rw [hJ0]; show 3072 * (t.val / 24) + p.val = _; omega)
  have hq : J 1 = q := hJ1
  rw [outsAt_eq V c t.val t.isLt p q, h23]
  unfold G term
  rw [hc, hq]

/-- What a point that writes back writes: block `t div 24` of `G`. -/
theorem flushed_eq (c : Dev nD) (t : Fin cfg2.N) (hf : (cfg2.win 2).flush t = true) :
    (dat2 V c).flushed 2 t = ((cfg2.win 2).blk t).view.read (Elt Ideal) (G V c) := by
  have h23 : t.val % 24 = 23 := (flush2_2 t).mp hf
  obtain ⟨-, -, -, -, e0, e1⟩ := idx_facts t
  show (cfg2.win 2).cut (grid2.coords t) ((dat2 V c).after 2 t) = _
  rw [after2_2]
  funext y
  exact flushed_at V c t h23 y (((cfg2.win 2).blk t).view.emb y)
    (by show win2_2.index t (0 : Fin 2) * 3072 + 1 * (y 0).val = 3072 * (t.val / 24) + (y 0).val; rw [e0]; omega)
    (Fin.ext (by show win2_2.index t (1 : Fin 2) * 16 + 1 * (y 1).val = (y 1).val; rw [e1]; omega))

/-- Every entry of the result lies in the block of a point that writes back: the last point of its column block. -/
theorem cover (i : S12288x16.Idx) : ∃ t : Fin cfg2.N, (cfg2.win 2).flush t = true ∧ i ∈ ((cfg2.win 2).blk t).view.set := by
  have h0 : (i 0).val < 12288 := (i 0).isLt
  have h1 : (i 1).val < 16 := (i 1).isLt
  obtain ⟨t, ht⟩ : ∃ t : Fin cfg2.N, t.val = 24 * ((i 0).val / 3072) + 23 :=
    ⟨⟨24 * ((i 0).val / 3072) + 23, by rw [show cfg2.N = 96 from N_2]; omega⟩, rfl⟩
  refine ⟨t, (flush2_2 t).mpr (by rw [ht]; omega), ?_⟩
  obtain ⟨-, -, -, -, e0, e1⟩ := idx_facts t
  show i ∈ ((View.whole main_v29).slice (win2_2.rect t)).set
  rw [View.set_slice_whole, Rect.mem_set_unit]
  intro a
  match a with
  | ⟨0, _⟩ =>
    show win2_2.index t (0 : Fin 2) * 3072 ≤ (i 0).val ∧ (i 0).val < win2_2.index t (0 : Fin 2) * 3072 + 3072
    rw [e0, ht]; omega
  | ⟨1, _⟩ =>
    show win2_2.index t (1 : Fin 2) * 16 ≤ (i 1).val ∧ (i 1).val < win2_2.index t (1 : Fin 2) * 16 + 16
    rw [e1]; omega

/-- The region's output array after the region: `G` of the arrays it found. -/
theorem final (c : Dev nD) : (dat2 V c).arrAt 2 cfg2.N = G V c :=
  (dat2 V c).arrAt_eq_of_cover 2 (G V c) (fun t hf => flushed_eq V c t hf) cover

end Acc

end Cert.Gcn.Reg2

end
-- ==== Proof.KChain.lean ====
/-
  The idealized kernel's buffers at each boundary between its segments, as functions of the arrays it was launched
  with.  The first region leaves a copy of A and the column sums of A; the host then forms the normalising factors
  d j = inv (column sum j + 1), the first dense layer h₁ = x·W₁ and its scaled rows; the second region leaves
  Aᵀ·(d ⊙ h₁); the host forms the first layer's output, its rectifier, the second dense layer h₂ and its scaled rows;
  the third region leaves Aᵀ·(d ⊙ h₂); the host forms the second layer's output plus x.  Read entry by entry this
  last array is `preK` of the launch arrays: the specification's arrangement with the self loop as a separate term.
  Through every boundary the arguments, the copied matrix and the normalising factors stay what they were
  (`Inv`, `InvD`): no later segment writes them.
-/
import proofs.«181473_j18975165513738_2_alg».proof.Proof.KStretch
import proofs.«181473_j18975165513738_2_alg».proof.Proof.Reg0
import proofs.«181473_j18975165513738_2_alg».proof.Proof.Reg1
import proofs.«181473_j18975165513738_2_alg».proof.Proof.Reg2
import proofs.«181473_j18975165513738_2_alg».proof.Proof.Tiles
import proofs.«181473_j18975165513738_2_alg».proof.Proof.Spec

set_option maxRecDepth 16384

noncomputable section

namespace Cert.Gcn.KC

open Cert.KernelIdeal Cert.KernelIdeal.Gen Cert.Gcn.KS
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The launch arrays, as extended reals -/

abbrev mA : S12288x12288.Idx → EReal := m ((c.tc : Thread nD τ).loc main_arg0)
abbrev mX : S12288x16.Idx → EReal := m ((c.tc : Thread nD τ).loc main_arg1)
abbrev mW1 : S16x256.Idx → EReal := m ((c.tc : Thread nD τ).loc main_arg2)
abbrev mB1 : S256.Idx → EReal := m ((c.tc : Thread nD τ).loc main_arg3)
abbrev mW2 : S256x16.Idx → EReal := m ((c.tc : Thread nD τ).loc main_arg4)
abbrev mB2 : S16.Idx → EReal := m ((c.tc : Thread nD τ).loc main_arg5)

/-- The same arrays with their coordinates as separate arguments, as the specification takes them. -/
abbrev cA : Fin 12288 → Fin 12288 → EReal := fun i k => mA m c (ix2 i k)
abbrev cX : Fin 12288 → Fin 16 → EReal := fun i k => mX m c (ix2 i k)
abbrev cW1 : Fin 16 → Fin 256 → EReal := fun k n => mW1 m c (ix2 k n)
abbrev cB1 : Fin 256 → EReal := fun n => mB1 m c (ix1 n)
abbrev cW2 : Fin 256 → Fin 16 → EReal := fun k n => mW2 m c (ix2 k n)
abbrev cB2 : Fin 16 → EReal := fun n => mB2 m c (ix1 n)

/-- The normalising factors. -/
abbrev dK : Fin 12288 → EReal := fun j => Cert.Gcn.inv (Cert.Gcn.degK (cA m c) j)

/-- The first dense layer, the first layer's output, its rectifier, the second dense layer. -/
abbrev h1 : Fin 12288 → Fin 256 → EReal := Cert.Gcn.lin (cX m c) (cW1 m c)
abbrev o1 : Fin 12288 → Fin 256 → EReal := Cert.Gcn.layerK (cA m c) (dK m c) (h1 m c) (cB1 m c)
abbrev h2 : Fin 12288 → Fin 16 → EReal := Cert.Gcn.lin (Cert.Gcn.relu (o1 m c)) (cW2 m c)

/-! ## What no later segment writes -/

/-- The arguments and the copied matrix hold the launch arrays. -/
def Inv (W : Valuation τ sig (Elt Ideal)) : Prop :=
  r_arg1 W = mX m c ∧ r_arg2 W = mW1 m c ∧ r_arg3 W = mB1 m c ∧ r_arg4 W = mW2 m c ∧ r_arg5 W = mB2 m c ∧ r_v0_0 W = mA m c

/-- And the normalising factors are in place. -/
def InvD (W : Valuation τ sig (Elt Ideal)) : Prop := Inv m c W ∧ ∀ j : Fin 12288, r_v7 W (ix1 j) = dK m c j

/-- After the first region: its two outputs, and the arguments as launched. -/
theorem inv_W1 : Inv m c (W1 m ρ c) :=
  ⟨W1_of_ne m ρ c main_arg1 (by decide), W1_of_ne m ρ c main_arg2 (by decide), W1_of_ne m ρ c main_arg3 (by decide),
   W1_of_ne m ρ c main_arg4 (by decide), W1_of_ne m ρ c main_arg5 (by decide),
   (W1_arr m ρ c 1).trans (Cert.Gcn.Reg0.final_copy (V0 m ρ) c)⟩

/-- After the first region the second output holds the column sums. -/
theorem cs_W1 (j : Fin 12288) : r_v0_1 (W1 m ρ c) (ix2 (0 : Fin 1) j) = ∑ r : Fin 12288, cA m c r j :=
  congrFun ((W1_arr m ρ c 2).trans (Cert.Gcn.Reg0.final_deg (V0 m ρ) c)) (ix2 (0 : Fin 1) j)

/-- Seven buffers hold in `W'` what they held in `W`. -/
abbrev Keeps (W' W : Valuation τ sig (Elt Ideal)) : Prop :=
  W' (Proc.devRef .tc main_arg1) = W (Proc.devRef .tc main_arg1)
  ∧ W' (Proc.devRef .tc main_arg2) = W (Proc.devRef .tc main_arg2)
  ∧ W' (Proc.devRef .tc main_arg3) = W (Proc.devRef .tc main_arg3)
  ∧ W' (Proc.devRef .tc main_arg4) = W (Proc.devRef .tc main_arg4)
  ∧ W' (Proc.devRef .tc main_arg5) = W (Proc.devRef .tc main_arg5)
  ∧ W' (Proc.devRef .tc main_v0_0) = W (Proc.devRef .tc main_v0_0)
  ∧ W' (Proc.devRef .tc main_v7) = W (Proc.devRef .tc main_v7)

/-- A segment that leaves those seven buffers alone carries the invariant across. -/
theorem invD_of_keeps {W' W : Valuation τ sig (Elt Ideal)} (k : Keeps W' W) (h : InvD m c W) : InvD m c W' :=
  ⟨⟨k.1.trans h.1.1, k.2.1.trans h.1.2.1, k.2.2.1.trans h.1.2.2.1, k.2.2.2.1.trans h.1.2.2.2.1,
    k.2.2.2.2.1.trans h.1.2.2.2.2.1, k.2.2.2.2.2.1.trans h.1.2.2.2.2.2⟩,
   fun j => (congrFun k.2.2.2.2.2.2 (ix1 j)).trans (h.2 j)⟩

theorem inv_keep1 {W : Valuation τ sig (Elt Ideal)} (h : Inv m c W) :
    Inv m c (StableHlo.after (hostOps1_1 (F := Ideal)) (StableHlo.after (hostOps1 (F := Ideal)) W)) :=
  ⟨(keep1 W).1.trans h.1, (keep1 W).2.1.trans h.2.1, (keep1 W).2.2.1.trans h.2.2.1, (keep1 W).2.2.2.1.trans h.2.2.2.1,
   (keep1 W).2.2.2.2.1.trans h.2.2.2.2.1, (keep1 W).2.2.2.2.2.trans h.2.2.2.2.2⟩

theorem inv_W3 : Inv m c (W3 m ρ c) := inv_keep1 m c (inv_W1 m ρ c)

/-- The normalising factors, once computed. -/
theorem d_W3 (j : Fin 12288) : r_v7 (W3 m ρ c) (ix1 j) = dK m c j :=
  (dis_at (W1 m ρ c) j).trans (by rw [cs_W1]; rfl)

/-- The first dense layer. -/
theorem h1_W4 (i : Fin 12288) (q : Fin 256) : r_v8 (W4 m ρ c) (ix2 i q) = h1 m c i q := by
  refine (h1_at (W3 m ρ c) i q).trans ?_
  rw [(inv_W3 m ρ c).1, (inv_W3 m ρ c).2.1]
  rfl

/-- Its rows scaled. -/
theorem y1_W4 (i : Fin 12288) (q : Fin 256) : r_v11 (W4 m ρ c) (ix2 i q) = dK m c i * h1 m c i q := by
  refine (y1_at (W3 m ρ c) i q).trans ?_
  rw [d_W3, (inv_W3 m ρ c).1, (inv_W3 m ρ c).2.1]
  rfl

/-- At the second region's entry. -/
theorem invD_W4 : InvD m c (W4 m ρ c) := invD_of_keeps m c (keep12 (W3 m ρ c)) ⟨inv_W3 m ρ c, d_W3 m ρ c⟩

/-- Across the second region. -/
theorem invD_W5 : InvD m c (W5 m ρ c) :=
  invD_of_keeps m c (W' := W5 m ρ c) (W := W4 m ρ c) ⟨W5_of_ne m ρ c main_arg1 (by decide), W5_of_ne m ρ c main_arg2 (by decide), W5_of_ne m ρ c main_arg3 (by decide), W5_of_ne m ρ c main_arg4 (by decide), W5_of_ne m ρ c main_arg5 (by decide), (W5_arr m ρ c 0).trans (((dat1 (V4 m ρ) c).arrAt_in 0 rfl _).trans (A_eq1 (V4 m ρ) c 0)), W5_of_ne m ρ c main_v7 (by decide)⟩ (invD_W4 m ρ c)

theorem h1_W5 (i : Fin 12288) (q : Fin 256) : r_v8 (W5 m ρ c) (ix2 i q) = h1 m c i q :=
  (congrFun (W5_of_ne m ρ c main_v8 (by decide)) (ix2 i q)).trans (h1_W4 m ρ c i q)

/-- The second region's output: the aggregate, over the edges of A, of the scaled first dense layer. -/
theorem agg1_W5 (j : Fin 12288) (q : Fin 256) :
    r_v12 (W5 m ρ c) (ix2 j q) = Cert.Gcn.aggK (cA m c) (fun i n => dK m c i * h1 m c i n) j q := by
  have e : r_v12 (W5 m ρ c) = Cert.Gcn.Reg1.G (V4 m ρ) c := (W5_arr m ρ c 2).trans (Cert.Gcn.Reg1.final (V4 m ρ) c)
  rw [e]
  show Ideal.ofBits .f32 0x00000000#32 + ∑ i ∈ Finset.range 24, ∑ k : Fin 512,
      (fun r : Fin 12288 => Cert.Gcn.Reg1.arrA (V4 m ρ) c (ix2 r j) * Cert.Gcn.Reg1.arrY (V4 m ρ) c (ix2 r q)) (Cert.Gcn.Reg1.row i k) = _
  refine (congrArg (Ideal.ofBits .f32 0x00000000#32 + ·) (Cert.Gcn.sum_tiles
    (fun r : Fin 12288 => Cert.Gcn.Reg1.arrA (V4 m ρ) c (ix2 r j) * Cert.Gcn.Reg1.arrY (V4 m ρ) c (ix2 r q)))).trans ?_
  rw [Ideal.ofBits_zero_f32, zero_add]
  unfold Cert.Gcn.aggK
  refine Finset.sum_congr rfl fun r _ => ?_
  show r_v0_0 (W4 m ρ c) (ix2 r j) * r_v11 (W4 m ρ c) (ix2 r q) = _
  rw [(invD_W4 m ρ c).1.2.2.2.2.2, y1_W4]

/-- The first layer's output. -/
theorem o1_W6 (j : Fin 12288) (q : Fin 256) : r_v23 (W6 m ρ c) (ix2 j q) = o1 m c j q := by
  refine (o1_at (W5 m ρ c) j q).trans ?_
  rw [(invD_W5 m ρ c).2 j, agg1_W5, h1_W5, (invD_W5 m ρ c).1.2.2.1]
  rfl

theorem invD_W6 : InvD m c (W6 m ρ c) := invD_of_keeps m c (keep2 (W5 m ρ c)) (invD_W5 m ρ c)

/-- Its rectifier. -/
theorem r1_W7 (i : Fin 12288) (q : Fin 256) : r_v24 (W7 m ρ c) (ix2 i q) = Cert.Gcn.relu (o1 m c) i q := by
  refine (r1_at (W6 m ρ c) (ix2 i q)).trans ?_
  rw [o1_W6]
  rfl

theorem invD_W7 : InvD m c (W7 m ρ c) := invD_of_keeps m c (keep21 (W6 m ρ c)) (invD_W6 m ρ c)

/-- The second dense layer. -/
theorem h2_W8 (i : Fin 12288) (q : Fin 16) : r_v25 (W8 m ρ c) (ix2 i q) = h2 m c i q := by
  refine (h2_at (W7 m ρ c) i q).trans ?_
  rw [(invD_W7 m ρ c).1.2.2.2.1]
  exact Finset.sum_congr rfl fun k _ => by rw [r1_W7]

/-- Its rows scaled. -/
theorem y2_W8 (i : Fin 12288) (q : Fin 16) : r_v28 (W8 m ρ c) (ix2 i q) = dK m c i * h2 m c i q := by
  refine (y2_at (W7 m ρ c) i q).trans ?_
  rw [(invD_W7 m ρ c).2 i, (invD_W7 m ρ c).1.2.2.2.1]
  exact congrArg _ (Finset.sum_congr rfl fun k _ => by rw [r1_W7])

theorem invD_W8 : InvD m c (W8 m ρ c) := invD_of_keeps m c (keep22 (W7 m ρ c)) (invD_W7 m ρ c)

/-- Across the third region. -/
theorem invD_W9 : InvD m c (W9 m ρ c) :=
  invD_of_keeps m c (W' := W9 m ρ c) (W := W8 m ρ c) ⟨W9_of_ne m ρ c main_arg1 (by decide), W9_of_ne m ρ c main_arg2 (by decide), W9_of_ne m ρ c main_arg3 (by decide), W9_of_ne m ρ c main_arg4 (by decide), W9_of_ne m ρ c main_arg5 (by decide), (W9_arr m ρ c 0).trans (((dat2 (V8 m ρ) c).arrAt_in 0 rfl _).trans (A_eq2 (V8 m ρ) c 0)), W9_of_ne m ρ c main_v7 (by decide)⟩ (invD_W8 m ρ c)

theorem h2_W9 (i : Fin 12288) (q : Fin 16) : r_v25 (W9 m ρ c) (ix2 i q) = h2 m c i q :=
  (congrFun (W9_of_ne m ρ c main_v25 (by decide)) (ix2 i q)).trans (h2_W8 m ρ c i q)

/-- The third region's output: the aggregate of the scaled second dense layer. -/
theorem agg2_W9 (j : Fin 12288) (q : Fin 16) :
    r_v29 (W9 m ρ c) (ix2 j q) = Cert.Gcn.aggK (cA m c) (fun i n => dK m c i * h2 m c i n) j q := by
  have e : r_v29 (W9 m ρ c) = Cert.Gcn.Reg2.G (V8 m ρ) c := (W9_arr m ρ c 2).trans (Cert.Gcn.Reg2.final (V8 m ρ) c)
  rw [e]
  show Ideal.ofBits .f32 0x00000000#32 + ∑ i ∈ Finset.range 24, ∑ k : Fin 512,
      (fun r : Fin 12288 => Cert.Gcn.Reg2.arrA (V8 m ρ) c (ix2 r j) * Cert.Gcn.Reg2.arrY (V8 m ρ) c (ix2 r q)) (Cert.Gcn.Reg2.row i k) = _
  refine (congrArg (Ideal.ofBits .f32 0x00000000#32 + ·) (Cert.Gcn.sum_tiles
    (fun r : Fin 12288 => Cert.Gcn.Reg2.arrA (V8 m ρ) c (ix2 r j) * Cert.Gcn.Reg2.arrY (V8 m ρ) c (ix2 r q)))).trans ?_
  rw [Ideal.ofBits_zero_f32, zero_add]
  unfold Cert.Gcn.aggK
  refine Finset.sum_congr rfl fun r _ => ?_
  show r_v0_0 (W8 m ρ c) (ix2 r j) * r_v28 (W8 m ρ c) (ix2 r q) = _
  rw [(invD_W8 m ρ c).1.2.2.2.2.2, y2_W8]

/-! ## The result -/

/-- The array the softmax is taken of is `preK` of the launch arrays. -/
theorem pre_W9 (j : Fin 12288) (q : Fin 16) :
    KS.pre (W9 m ρ c) (ix2 j q) = Cert.Gcn.preK (cA m c) (cX m c) (cW1 m c) (cB1 m c) (cW2 m c) (cB2 m c) j q := by
  refine (pre_at (W9 m ρ c) j q).trans ?_
  rw [(invD_W9 m ρ c).2 j, agg2_W9, h2_W9, (invD_W9 m ρ c).1.2.2.2.2.1, (invD_W9 m ρ c).1.1]
  rfl

/-- The program's result buffer at the last boundary: the column-wise softmax of that array. -/
theorem result_W10 : W10 m ρ c (Proc.devRef .tc main_v52) = Cert.Gcn.softmax0 (KS.pre (W9 m ρ c)) :=
  KS.result_eq (W9 m ρ c)

end Cert.Gcn.KC

end
-- ==== Proof.RefValue.lean ====
/-
  The reference program's result, read index by index.

  The reference computes, on host operations only, a two-layer graph convolution with symmetric normalisation and ends
  with a column-wise softmax.  This module names the array the softmax is taken of (the program's last addition, the
  second layer's output plus the input features) as a function of the argument arrays, shows that the program's result
  is the shared softmax chain applied to that array, and reads the array at an index (j, q): it is the specification's
  `preR` of the six argument arrays at (j, q).

  The reading goes stage by stage, each stage stated at explicit coordinates:
    • the identity matrix: the comparison of the row counter with the column counter, converted to a float, is one on
      the diagonal and zero off it (the counters are 32-bit words of coordinates below 2^32, so equal words mean equal
      coordinates);
    • the in-degree: the column sum, from the zero word, of the adjacency matrix with the identity added;
    • the normalising factor: the select on "in-degree > 0" between the reciprocal square root and zero;
    • a dense layer: the plain sum over the contracted coordinate;
    • the aggregation: the product of the transposed matrix with the rows scaled by their factors;
    • a layer's output: the factor times the aggregation, plus the bias; the rectifier is the maximum with zero;
    • the second layer the same at width 16, and the input features added back.
  Every multiplication and addition is met in the order the specification writes it, so no algebraic law is used:
  each step is an unfolding.
-/
import proofs.«181473_j18975165513738_2_alg».proof.Proof.Gen.ReferenceIdeal.Read
import proofs.«181473_j18975165513738_2_alg».proof.Proof.Spec
import proofs.«181473_j18975165513738_2_alg».proof.Proof.Tail

noncomputable section

namespace Cert.Gcn.Ref

open Idealize.ShloMosaic Idealize.ShloMosaic.ValueIdx Cert.ReferenceIdeal Cert.ReferenceIdeal.Gen
open Idealize.ShloMosaic.TcCoe Idealize.SL.Sem
open Cert.ReferenceIdeal.Read

section Result

variable (m : (ℓ : Loc nD τ sig) → Buf (Elt Ideal) ℓ) (c : Dev nD)

/-- The reference's array before the softmax (its %37), as a function of the argument arrays. -/
def pre : FVec Ideal S12288x16 .f32 :=
  val_main_v37 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- The program's result is the column-wise softmax of that array: the last eleven operations are the shared chain. -/
theorem res_eq : Cert.ReferenceIdeal.Value.res_out0 (F := Ideal) m c = Cert.Gcn.softmax0 (pre m c) := by
  refine (val_main_v48_eq m c).trans ?_
  unfold pre Cert.Gcn.softmax0 Cert.Gcn.expShifted val_main_v48 val_main_v47 val_main_v46 val_main_v45 val_main_v44
    val_main_v43 val_main_v42 val_main_v41 val_main_v40 val_main_v39 val_main_v38 val_main_cst_2 val_main_cst_3
    val_main_cst_4
  rfl

end Result

section Stages

/-! ## The stages at explicit coordinates

The six argument arrays are variables; a matrix is read through `ix2`, a vector through `ix1`. -/

variable (x0 : FVec Ideal S12288x12288 .f32) (x1 : FVec Ideal S12288x16 .f32) (x2 : FVec Ideal S16x256 .f32)
  (x3 : FVec Ideal S256 .f32) (x4 : FVec Ideal S256x16 .f32) (x5 : FVec Ideal S16 .f32)

/-- The zero word is the specification's zero. -/
theorem zeroWord : (FloatOps.ofBits (F := Ideal) .f32 0x00000000#32 : EReal) = z32 := rfl

/-- The identity matrix: the converted comparison of the two counters is one on the diagonal, zero off it. -/
theorem eye_at (i k : Fin 12288) : val_main_v5 (F := Ideal) (ix2 i k) = eye i k := by
  rw [val_main_v5_apply, val_main_v4_apply, val_main_v3_apply, val_main_v0_apply, val_main_v2_apply,
    val_main_c_apply, val_main_v1_apply]
  show (((IntOp.cmpi .eq (IntOp.addi (BitVec.ofNat 32 i.val) 0#32) (BitVec.ofNat 32 k.val)).toNat : ℝ) : EReal) = eye i k
  unfold eye IntOp.cmpi IntOp.addi
  rw [BitVec.add_zero]
  by_cases h : i = k
  · subst h
    simp
  · have hne : ¬ BitVec.ofNat 32 i.val = BitVec.ofNat 32 k.val := by
      intro he
      have h2 := congrArg BitVec.toNat he
      rw [BitVec.toNat_ofNat, BitVec.toNat_ofNat] at h2
      have hi := i.isLt
      have hk := k.isLt
      exact h (Fin.ext (by omega))
    simp [h, hne]

/-- The adjacency matrix with the identity added. -/
theorem adj_at (i k : Fin 12288) : val_main_v6 (F := Ideal) x0 (ix2 i k) = x0 (ix2 i k) + eye i k := by
  rw [val_main_v6_apply, eye_at]
  rfl

/-- The in-degree: the column sum of the matrix with the identity added. -/
theorem deg_at (j : Fin 12288) :
    val_main_v7 (F := Ideal) x0 (ix1 j) = degR (fun i k => x0 (ix2 i k)) j := by
  rw [val_main_v7_apply, val_main_cst_apply, zeroWord]
  show Ideal.ofBits .f32 0x00000000#32 + _ = _
  rw [Ideal.ofBits_zero_f32, zero_add]
  unfold degR
  refine Finset.sum_congr rfl fun k _ => ?_
  have e : idx_main_v7 (ix1 j) k = ix2 k j :=
    funext fun a => by match a with | ⟨0, _⟩ => rfl | ⟨1, _⟩ => rfl
  rw [e, adj_at]

/-- The normalising factor of a node. -/
theorem dis_at (j : Fin 12288) :
    val_main_v11 (F := Ideal) x0 (ix1 j) = inv (degR (fun i k => x0 (ix2 i k)) j) := by
  rw [val_main_v11_apply, val_main_v9_apply, val_main_v10_apply, val_main_v8_apply, val_main_call0_v1_apply,
    val_main_call0_v0_apply, val_main_cst_0_apply, val_main_cst_1_apply, deg_at]
  rfl

/-- The first dense layer: features times weights. -/
theorem lin1_at (j : Fin 12288) (n : Fin 256) :
    val_main_v12 (F := Ideal) x1 x2 (ix2 j n)
      = lin (fun i k => x1 (ix2 i k)) (fun k n => x2 (ix2 k n)) j n := by
  rw [val_main_v12_apply]
  unfold lin
  refine Finset.sum_congr rfl fun k _ => ?_
  have el : lidx_main_v12 (ix2 j n) k = ix2 j k :=
    funext fun a => by match a with | ⟨0, _⟩ => rfl | ⟨1, _⟩ => rfl
  have er : ridx_main_v12 (ix2 j n) k = ix2 k n :=
    funext fun a => by match a with | ⟨0, _⟩ => rfl | ⟨1, _⟩ => rfl
  rw [el, er]

/-- The first layer's rows scaled by their nodes' factors. -/
theorem scaled1_at (k : Fin 12288) (n : Fin 256) :
    val_main_v17 (F := Ideal) x0 x1 x2 (ix2 k n)
      = inv (degR (fun i k => x0 (ix2 i k)) k) * lin (fun i k => x1 (ix2 i k)) (fun k n => x2 (ix2 k n)) k n := by
  have e : idx_main_v15 (idx_main_v16 (ix2 k n)) = ix1 k :=
    funext fun a => by match a with | ⟨0, _⟩ => rfl
  rw [val_main_v17_apply, val_main_v16_apply, val_main_v15_apply, e, dis_at, lin1_at]
  rfl

/-- The transposed matrix. -/
theorem adjT1_at (j k : Fin 12288) : val_main_v14 (F := Ideal) x0 (ix2 j k) = x0 (ix2 k j) + eye k j := by
  have e : idx_main_v14 (ix2 j k) = ix2 k j :=
    funext fun a => by match a with | ⟨0, _⟩ => rfl | ⟨1, _⟩ => rfl
  rw [val_main_v14_apply, e, adj_at]

/-- The first aggregation over the incoming edges. -/
theorem agg1_at (j : Fin 12288) (n : Fin 256) :
    val_main_v18 (F := Ideal) x0 x1 x2 (ix2 j n)
      = aggR (fun i k => x0 (ix2 i k))
          (fun i n => inv (degR (fun i k => x0 (ix2 i k)) i) * lin (fun i k => x1 (ix2 i k)) (fun k n => x2 (ix2 k n)) i n) j n := by
  rw [val_main_v18_apply]
  unfold aggR
  refine Finset.sum_congr rfl fun k _ => ?_
  have el : lidx_main_v18 (ix2 j n) k = ix2 j k :=
    funext fun a => by match a with | ⟨0, _⟩ => rfl | ⟨1, _⟩ => rfl
  have er : ridx_main_v18 (ix2 j n) k = ix2 k n :=
    funext fun a => by match a with | ⟨0, _⟩ => rfl | ⟨1, _⟩ => rfl
  rw [el, er, adjT1_at, scaled1_at]

/-- The first layer's output. -/
theorem layer1_at (j : Fin 12288) (n : Fin 256) :
    val_main_v23 (F := Ideal) x0 x1 x2 x3 (ix2 j n)
      = layerR (fun i k => x0 (ix2 i k)) (fun j => inv (degR (fun i k => x0 (ix2 i k)) j))
          (lin (fun i k => x1 (ix2 i k)) (fun k n => x2 (ix2 k n))) (fun n => x3 (ix1 n)) j n := by
  have e1 : idx_main_v13 (idx_main_v19 (ix2 j n)) = ix1 j :=
    funext fun a => by match a with | ⟨0, _⟩ => rfl
  have e2 : idx_main_v21 (idx_main_v22 (ix2 j n)) = ix1 n :=
    funext fun a => by match a with | ⟨0, _⟩ => rfl
  rw [val_main_v23_apply, val_main_v20_apply, val_main_v19_apply, val_main_v13_apply, e1, dis_at, agg1_at,
    val_main_v22_apply, val_main_v21_apply, e2]
  rfl

/-- The rectified first layer. -/
theorem relu1_at (j : Fin 12288) (n : Fin 256) :
    val_main_v24 (F := Ideal) x0 x1 x2 x3 (ix2 j n)
      = relu (layerR (fun i k => x0 (ix2 i k)) (fun j => inv (degR (fun i k => x0 (ix2 i k)) j))
          (lin (fun i k => x1 (ix2 i k)) (fun k n => x2 (ix2 k n))) (fun n => x3 (ix1 n))) j n := by
  rw [val_main_v24_apply, val_main_call1_v0_apply, val_main_call1_cst_apply, layer1_at]
  rfl

/-- The second dense layer: the rectified first layer times the second weights. -/
theorem lin2_at (j : Fin 12288) (q : Fin 16) :
    val_main_v25 (F := Ideal) x0 x1 x2 x3 x4 (ix2 j q)
      = lin (relu (layerR (fun i k => x0 (ix2 i k)) (fun j => inv (degR (fun i k => x0 (ix2 i k)) j))
          (lin (fun i k => x1 (ix2 i k)) (fun k n => x2 (ix2 k n))) (fun n => x3 (ix1 n))))
          (fun k n => x4 (ix2 k n)) j q := by
  rw [val_main_v25_apply]
  unfold lin
  refine Finset.sum_congr rfl fun k _ => ?_
  have el : lidx_main_v25 (ix2 j q) k = ix2 j k :=
    funext fun a => by match a with | ⟨0, _⟩ => rfl | ⟨1, _⟩ => rfl
  have er : ridx_main_v25 (ix2 j q) k = ix2 k q :=
    funext fun a => by match a with | ⟨0, _⟩ => rfl | ⟨1, _⟩ => rfl
  rw [el, er, relu1_at]
  rfl

/-- The second layer's rows scaled by their nodes' factors. -/
theorem scaled2_at (k : Fin 12288) (q : Fin 16) :
    val_main_v30 (F := Ideal) x0 x1 x2 x3 x4 (ix2 k q)
      = inv (degR (fun i k => x0 (ix2 i k)) k)
        * lin (relu (layerR (fun i k => x0 (ix2 i k)) (fun j => inv (degR (fun i k => x0 (ix2 i k)) j))
            (lin (fun i k => x1 (ix2 i k)) (fun k n => x2 (ix2 k n))) (fun n => x3 (ix1 n))))
            (fun k n => x4 (ix2 k n)) k q := by
  have e : idx_main_v28 (idx_main_v29 (ix2 k q)) = ix1 k :=
    funext fun a => by match a with | ⟨0, _⟩ => rfl
  rw [val_main_v30_apply, val_main_v29_apply, val_main_v28_apply, e, dis_at, lin2_at]
  rfl

/-- The transposed matrix, as the second layer reads it. -/
theorem adjT2_at (j k : Fin 12288) : val_main_v27 (F := Ideal) x0 (ix2 j k) = x0 (ix2 k j) + eye k j := by
  have e : idx_main_v27 (ix2 j k) = ix2 k j :=
    funext fun a => by match a with | ⟨0, _⟩ => rfl | ⟨1, _⟩ => rfl
  rw [val_main_v27_apply, e, adj_at]

/-- The second aggregation over the incoming edges. -/
theorem agg2_at (j : Fin 12288) (q : Fin 16) :
    val_main_v31 (F := Ideal) x0 x1 x2 x3 x4 (ix2 j q)
      = aggR (fun i k => x0 (ix2 i k))
          (fun i q => inv (degR (fun i k => x0 (ix2 i k)) i)
            * lin (relu (layerR (fun i k => x0 (ix2 i k)) (fun j => inv (degR (fun i k => x0 (ix2 i k)) j))
                (lin (fun i k => x1 (ix2 i k)) (fun k n => x2 (ix2 k n))) (fun n => x3 (ix1 n))))
                (fun k n => x4 (ix2 k n)) i q) j q := by
  rw [val_main_v31_apply]
  unfold aggR
  refine Finset.sum_congr rfl fun k _ => ?_
  have el : lidx_main_v31 (ix2 j q) k = ix2 j k :=
    funext fun a => by match a with | ⟨0, _⟩ => rfl | ⟨1, _⟩ => rfl
  have er : ridx_main_v31 (ix2 j q) k = ix2 k q :=
    funext fun a => by match a with | ⟨0, _⟩ => rfl | ⟨1, _⟩ => rfl
  rw [el, er, adjT2_at, scaled2_at]

/-- The second layer's output. -/
theorem layer2_at (j : Fin 12288) (q : Fin 16) :
    val_main_v36 (F := Ideal) x0 x1 x2 x3 x4 x5 (ix2 j q)
      = layerR (fun i k => x0 (ix2 i k)) (fun j => inv (degR (fun i k => x0 (ix2 i k)) j))
          (lin (relu (layerR (fun i k => x0 (ix2 i k)) (fun j => inv (degR (fun i k => x0 (ix2 i k)) j))
            (lin (fun i k => x1 (ix2 i k)) (fun k n => x2 (ix2 k n))) (fun n => x3 (ix1 n))))
            (fun k n => x4 (ix2 k n)))
          (fun n => x5 (ix1 n)) j q := by
  have e1 : idx_main_v26 (idx_main_v32 (ix2 j q)) = ix1 j :=
    funext fun a => by match a with | ⟨0, _⟩ => rfl
  have e2 : idx_main_v34 (idx_main_v35 (ix2 j q)) = ix1 q :=
    funext fun a => by match a with | ⟨0, _⟩ => rfl
  rw [val_main_v36_apply, val_main_v33_apply, val_main_v32_apply, val_main_v26_apply, e1, dis_at, agg2_at,
    val_main_v35_apply, val_main_v34_apply, e2]
  rfl

/-- The array the softmax is taken of: both layers and the input features added back. -/
theorem pre_at (j : Fin 12288) (q : Fin 16) :
    val_main_v37 (F := Ideal) x0 x1 x2 x3 x4 x5 (ix2 j q)
      = preR (fun i k => x0 (ix2 i k)) (fun i k => x1 (ix2 i k)) (fun k n => x2 (ix2 k n)) (fun n => x3 (ix1 n))
          (fun k n => x4 (ix2 k n)) (fun n => x5 (ix1 n)) j q := by
  rw [val_main_v37_apply, layer2_at]
  rfl

end Stages

section Reading

variable (m : (ℓ : Loc nD τ sig) → Buf (Elt Ideal) ℓ) (c : Dev nD)

/-- The reference's array before the softmax, at an index, is the specification's `preR` of the argument arrays. -/
theorem pre_apply (j : Fin 12288) (q : Fin 16) :
    pre m c (ix2 j q) = Cert.Gcn.preR
      (fun i k => m ((c.tc : Thread nD τ).loc main_arg0) (ix2 i k))
      (fun i k => m ((c.tc : Thread nD τ).loc main_arg1) (ix2 i k))
      (fun k n => m ((c.tc : Thread nD τ).loc main_arg2) (ix2 k n))
      (fun n => m ((c.tc : Thread nD τ).loc main_arg3) (ix1 n))
      (fun k n => m ((c.tc : Thread nD τ).loc main_arg4) (ix2 k n))
      (fun n => m ((c.tc : Thread nD τ).loc main_arg5) (ix1 n)) j q :=
  pre_at (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) j q

end Reading

end Cert.Gcn.Ref

end
-- ==== Proof.Algebra.lean ====
/-
  The two arrangements of the two-layer graph convolution agree on real-valued data.

  The arrangements differ in how the self loop of every node is accounted for: either the identity matrix is added to
  the edge weights before summing, or the sum runs over the edge weights alone and the self loop is a separate term.
  For the in-degrees the step between them is  Σ_i (A i j + [i = j]) = (Σ_i A i j) + 1,  which holds in any additive
  commutative monoid, so for all extended reals.  For a layer the step is distributivity,

      d j · Σ_k (A k j + [k = j]) · (d k · h k c)  =  d j · Σ_i A i j · (d i · h i c)  +  (d j · d j) · h j c,

  which fails at the infinities of the extended reals (for instance (⊤ + ⊥) · y against ⊤ · y + ⊥ · y).  So everything
  that enters a layer is first shown to be a real number: the real numbers inside the extended reals are closed under
  addition, multiplication, finite sums and maxima, and the normalising factor of a real in-degree is real, because the
  reciprocal square root is only taken of a positive real and zero is taken otherwise.  With real entries the identity
  is pulled back along the coercion from the reals, where it is distributivity and the evaluation of a sum against an
  indicator.  Applying the layer identity twice, with realness of the intermediate arrays carried along, gives the
  agreement of the two full arrangements.
-/
import proofs.«181473_j18975165513738_2_alg».proof.Proof.Spec
import Idealize.ShloMosaic.PureOps.Ideal.Laws

noncomputable section

namespace Cert.Gcn

open Idealize.ShloMosaic

/-- An extended real that is a real number. -/
def IsR (x : EReal) : Prop := ∃ r : ℝ, x = (r : EReal)

/-! ## The real numbers inside the extended reals are closed under the operations used -/

theorem isR_coe (r : ℝ) : IsR (r : EReal) := ⟨r, rfl⟩

theorem isR_zero : IsR (0 : EReal) := ⟨0, EReal.coe_zero.symm⟩

theorem isR_one : IsR (1 : EReal) := ⟨1, EReal.coe_one.symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max {x y : EReal} (hx : IsR x) (hy : IsR y) : IsR (max x y) := by
  rcases max_choice x y with h | h <;> rw [h] <;> assumption

/-- A finite sum of real numbers is a real number. -/
theorem isR_sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- The coercion from the reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The float zero is the extended real zero. -/
theorem z32_eq : z32 = 0 := Ideal.ofBits_zero_f32

theorem isR_z32 : IsR z32 := by rw [z32_eq]; exact isR_zero

/-- The normalising factor of a real in-degree is real: the reciprocal square root of a positive real, or zero. -/
theorem isR_inv {d : EReal} (hd : IsR d) : IsR (inv d) := by
  obtain ⟨r, rfl⟩ := hd
  show IsR (if BitVec.ofBool (decide (z32 < (r : EReal))) = 1 then Ideal.rsqrt (r : EReal) else z32)
  rw [z32_eq]
  by_cases h : (0 : EReal) < (r : EReal)
  · have hr : 0 < r := by exact_mod_cast h
    rw [decide_eq_true h, if_pos (by decide), Ideal.rsqrt_coe, if_neg (not_lt.mpr hr.le), if_neg hr.ne']
    exact isR_coe _
  · rw [decide_eq_false h, if_neg (by decide)]
    exact isR_zero

/-! ## The in-degrees -/

/-- The column of the identity matrix sums to one. -/
theorem sum_eye (j : Fin Nn) : ∑ i : Fin Nn, eye i j = 1 := by
  unfold eye
  rw [Finset.sum_ite_eq' Finset.univ j (fun _ => (1 : EReal)), if_pos (Finset.mem_univ j)]

theorem degK_eq_degR (A : Fin Nn → Fin Nn → EReal) (j : Fin Nn) : degK A j = degR A j := by
  unfold degK degR
  rw [Finset.sum_add_distrib, sum_eye]

theorem isR_eye (i j : Fin Nn) : IsR (eye i j) := by
  unfold eye
  split_ifs
  · exact isR_one
  · exact isR_zero

theorem isR_degR (A : Fin Nn → Fin Nn → EReal) (hA : ∀ i j, IsR (A i j)) (j : Fin Nn) : IsR (degR A j) :=
  isR_sum _ _ fun i _ => (hA i j).add (isR_eye i j)

/-! ## One layer -/

/-- The step between the arrangements, on the reals: distributivity, and a sum against an indicator. -/
theorem selfloop_real {ι : Type} [Fintype ι] [DecidableEq ι] (a d y : ι → ℝ) (j : ι) :
    d j * (∑ i, a i * (d i * y i)) + (d j * d j) * y j
      = d j * ∑ k, (a k + (if k = j then 1 else 0)) * (d k * y k) := by
  have e : ∀ k, (a k + (if k = j then (1 : ℝ) else 0)) * (d k * y k)
      = a k * (d k * y k) + (if k = j then d k * y k else 0) := by
    intro k
    split_ifs <;> ring
  rw [Finset.sum_congr rfl fun k _ => e k, Finset.sum_add_distrib,
    Finset.sum_ite_eq' Finset.univ j (fun k => d k * y k), if_pos (Finset.mem_univ j)]
  ring

/-- The same on extended reals that are real numbers. -/
theorem selfloop_ereal {ι : Type} [Fintype ι] [DecidableEq ι] (a d y : ι → EReal) (j : ι)
    (ha : ∀ i, IsR (a i)) (hd : ∀ i, IsR (d i)) (hy : ∀ i, IsR (y i)) :
    d j * (∑ i, a i * (d i * y i)) + (d j * d j) * y j
      = d j * ∑ k, (a k + (if k = j then 1 else 0)) * (d k * y k) := by
  choose a' ha' using ha
  choose d' hd' using hd
  choose y' hy' using hy
  obtain rfl : a = fun i => (a' i : EReal) := funext ha'
  obtain rfl : d = fun i => (d' i : EReal) := funext hd'
  obtain rfl : y = fun i => (y' i : EReal) := funext hy'
  have e : ∀ k, (if k = j then (1 : EReal) else 0) = (((if k = j then 1 else 0 : ℝ)) : EReal) := by
    intro k
    split_ifs
    · exact EReal.coe_one.symm
    · exact EReal.coe_zero.symm
  simp only [e, ← EReal.coe_mul, ← EReal.coe_add, ← coe_sum]
  rw [selfloop_real a' d' y' j]

/-- One layer in the two arrangements, on real-valued edge weights, normalising factors and features. The bias is
    added last on both sides and may be any extended real. -/
theorem layerK_eq_layerR {n : ℕ} (A : Fin Nn → Fin Nn → EReal) (d : Fin Nn → EReal) (h : Fin Nn → Fin n → EReal)
    (b : Fin n → EReal) (hA : ∀ i j, IsR (A i j)) (hd : ∀ i, IsR (d i)) (hh : ∀ i c, IsR (h i c)) :
    layerK A d h b = layerR A d h b := by
  funext j c
  unfold layerK layerR aggK aggR eye
  rw [selfloop_ereal (fun i => A i j) d (fun i => h i c) j (fun i => hA i j) hd (fun i => hh i c)]

/-! ## Realness of the intermediate arrays -/

theorem isR_lin {a k n : ℕ} (X : Fin a → Fin k → EReal) (W : Fin k → Fin n → EReal)
    (hX : ∀ i q, IsR (X i q)) (hW : ∀ q c, IsR (W q c)) (i : Fin a) (c : Fin n) : IsR (lin X W i c) :=
  isR_sum _ _ fun q _ => (hX i q).mul (hW q c)

theorem isR_relu {a n : ℕ} (o : Fin a → Fin n → EReal) (ho : ∀ i c, IsR (o i c)) (i : Fin a) (c : Fin n) :
    IsR (relu o i c) :=
  (ho i c).max isR_z32

theorem isR_layerR {n : ℕ} (A : Fin Nn → Fin Nn → EReal) (d : Fin Nn → EReal) (h : Fin Nn → Fin n → EReal)
    (b : Fin n → EReal) (hA : ∀ i j, IsR (A i j)) (hd : ∀ i, IsR (d i)) (hh : ∀ i c, IsR (h i c))
    (hb : ∀ c, IsR (b c)) (j : Fin Nn) (c : Fin n) : IsR (layerR A d h b j c) :=
  ((hd j).mul (isR_sum _ _ fun k _ => ((hA k j).add (isR_eye k j)).mul ((hd k).mul (hh k c)))).add (hb c)

/-! ## Both layers -/

theorem preK_eq_preR (A : Fin Nn → Fin Nn → EReal) (x : Fin Nn → Fin 16 → EReal) (W1 : Fin 16 → Fin 256 → EReal)
    (b1 : Fin 256 → EReal) (W2 : Fin 256 → Fin 16 → EReal) (b2 : Fin 16 → EReal)
    (hA : ∀ i j, IsR (A i j)) (hx : ∀ i c, IsR (x i c)) (hW1 : ∀ k c, IsR (W1 k c)) (hb1 : ∀ c, IsR (b1 c))
    (hW2 : ∀ k c, IsR (W2 k c)) (hb2 : ∀ c, IsR (b2 c)) :
    preK A x W1 b1 W2 b2 = preR A x W1 b1 W2 b2 := by
  have hdeg : (fun j => inv (degK A j)) = fun j => inv (degR A j) := funext fun j => by rw [degK_eq_degR]
  have hd : ∀ j, IsR (inv (degR A j)) := fun j => isR_inv (isR_degR A hA j)
  have h1 : ∀ i c, IsR (lin x W1 i c) := isR_lin x W1 hx hW1
  have h2 : ∀ i c, IsR (layerR A (fun j => inv (degR A j)) (lin x W1) b1 i c) :=
    isR_layerR A _ _ b1 hA hd h1 hb1
  have h3 : ∀ i c, IsR (relu (layerR A (fun j => inv (degR A j)) (lin x W1) b1) i c) := isR_relu _ h2
  have h4 : ∀ i c, IsR (lin (relu (layerR A (fun j => inv (degR A j)) (lin x W1) b1)) W2 i c) :=
    isR_lin _ W2 h3 hW2
  funext j c
  unfold preK preR
  rw [hdeg, layerK_eq_layerR A _ (lin x W1) b1 hA hd h1, layerK_eq_layerR A _ _ b2 hA hd h4]

end Cert.Gcn

end
-- ==== Proof.Finite.lean ====
/-
  The precondition of the certificate makes every entry of the six array inputs a real number.

  The precondition is the conjunction, over the inputs, of "every entry x of the array satisfies |x| < +∞", each
  conjunct computed as a reduction by logical and of the entrywise comparisons, started from true.  A conjunction of
  one-bit words that is 1 has both its sides 1; a reduction by and into a single result that is 1 met only 1s; and the
  comparison max x (-x) < ⊤ on the extended reals excludes both infinities (at ⊥ the maximum is -⊥ = ⊤, at ⊤ it is ⊤),
  so that x is a real number.  The bit pattern 0x7F800000 (sign 0, exponent all ones, fraction 0) denotes ⊤.
  One lemma, generic in the shape of the array, carries the last two steps; it is used once per input.
-/
import proofs.«181473_j18975165513738_2_alg».proof.Proof.Algebra
import proofs.«181473_j18975165513738_2_alg».proof.Proof.Gen.Pre_finite_inputs
import Idealize.ShloMosaic.Lib.ReduceAll

noncomputable section

namespace Cert.Gcn.Finite

open Idealize.ShloMosaic Cert.Pre_finite_inputs

/-- The shape of rank zero has one index. -/
instance : Subsingleton S_.Idx := ⟨fun a b => funext fun d => d.elim0⟩

/-- The pattern of the float `+inf` denotes the top of the extended reals. -/
theorem inf_bits : Ideal.ofBits .f32 0x7F800000#32 = (⊤ : EReal) := by simp [Ideal.ofBits, Ideal.ieee]

/-- An extended real whose absolute value, `max v (-v)`, compares below `⊤` is a real number. -/
theorem real_of_abs_lt_top (v : EReal) (hv : Ideal.cmp .olt (max v (-v)) ⊤ = 1#1) : IsR v := by
  have h1 : max v (-v) < ⊤ := by
    by_contra hn
    have h0 : Ideal.cmp .olt (max v (-v)) ⊤ = 0#1 := by
      show BitVec.ofBool (decide (max v (-v) < ⊤)) = 0#1
      rw [decide_eq_false hn]
      rfl
    rw [h0] at hv
    exact absurd hv (by decide)
  induction v using EReal.rec with
  | bot =>
    rw [EReal.neg_bot, max_eq_right bot_le] at h1
    exact absurd h1 (lt_irrefl _)
  | coe r => exact ⟨r, rfl⟩
  | top =>
    rw [max_eq_left le_top] at h1
    exact absurd h1 (lt_irrefl _)

/-- An array all of whose entries pass `|x| < +inf`, the test being a reduction by `and` into a single result that came
    out 1, has only real entries.  Generic in the shape of the array, in the reduced axes and in the array `top` compared
    against, of which only `top i = ⊤` is used. -/
theorem real_of_all_lt_inf {s t u : Shape} {axes : List (Fin s.rank)} [Subsingleton t.Idx]
    (x top : FVec Ideal s .f32) (htop : ∀ i, top i = (⊤ : EReal)) (init : IVec u 1)
    (h : s.ReducesTo axes t) (hu : 0 < u.numel) (j : t.Idx)
    (e : Host.reduce IntOp.andi (cmpf .olt (Host.absf x) top) init h hu j = 1#1) (i : s.Idx) : IsR (x i) := by
  have hi : cmpf .olt (Host.absf x) top i = 1#1 := Host.reduce_andi_all _ init h hu j e i
  have hi' : Ideal.cmp .olt (max (x i) (-(x i))) (top i) = 1#1 := hi
  rw [htop i] at hi'
  exact real_of_abs_lt_top (x i) hi'

theorem real_of_pre (a0 : FVec Ideal S12288x12288 .f32) (a1 : FVec Ideal S12288x16 .f32) (a2 : FVec Ideal S16x256 .f32)
    (a3 : FVec Ideal S256 .f32) (a4 : FVec Ideal S256x16 .f32) (a5 : FVec Ideal S16 .f32) (a6 : FVec Ideal S1 .f32)
    (h : Cert.Pre_finite_inputs.fn (F := Ideal) a0 a1 a2 a3 a4 a5 a6 = fun _ => 1#1) :
    (∀ i, Cert.Gcn.IsR (a0 i)) ∧ (∀ i, Cert.Gcn.IsR (a1 i)) ∧ (∀ i, Cert.Gcn.IsR (a2 i)) ∧ (∀ i, Cert.Gcn.IsR (a3 i))
      ∧ (∀ i, Cert.Gcn.IsR (a4 i)) ∧ (∀ i, Cert.Gcn.IsR (a5 i)) := by
  have h0 : Cert.Pre_finite_inputs.fn (F := Ideal) a0 a1 a2 a3 a4 a5 a6 ValueIdx.ix0 = 1#1 := congrFun h ValueIdx.ix0
  change IntOp.andi _ _ = 1#1 at h0
  obtain ⟨h0, -⟩ := IntOp.andi_eq_one.1 h0
  change IntOp.andi _ _ = 1#1 at h0
  obtain ⟨h0, e5⟩ := IntOp.andi_eq_one.1 h0
  change IntOp.andi _ _ = 1#1 at h0
  obtain ⟨h0, e4⟩ := IntOp.andi_eq_one.1 h0
  change IntOp.andi _ _ = 1#1 at h0
  obtain ⟨h0, e3⟩ := IntOp.andi_eq_one.1 h0
  change IntOp.andi _ _ = 1#1 at h0
  obtain ⟨h0, e2⟩ := IntOp.andi_eq_one.1 h0
  change IntOp.andi _ _ = 1#1 at h0
  obtain ⟨e0, e1⟩ := IntOp.andi_eq_one.1 h0
  exact ⟨real_of_all_lt_inf a0 _ (fun _ => inf_bits) _ _ _ _ e0,
    real_of_all_lt_inf a1 _ (fun _ => inf_bits) _ _ _ _ e1,
    real_of_all_lt_inf a2 _ (fun _ => inf_bits) _ _ _ _ e2,
    real_of_all_lt_inf a3 _ (fun _ => inf_bits) _ _ _ _ e3,
    real_of_all_lt_inf a4 _ (fun _ => inf_bits) _ _ _ _ e4,
    real_of_all_lt_inf a5 _ (fun _ => inf_bits) _ _ _ _ e5⟩

end Cert.Gcn.Finite

end
-- ==== Proof.lean ====
/-
  A two-layer graph convolution with symmetric normalisation followed by a column-wise softmax: the device kernel
  against its array-language reference, on the extended reals.

  Both programs compute, for the adjacency matrix A (12288 × 12288) with a self loop added at every node, the in-degrees
  deg, the factors d = deg^(-1/2), and twice a layer  out = d ⊙ (Âᵀ · (d ⊙ (h·W))) + b  with  = A + I, a rectifier in
  between, then add the input features back and take the softmax down each column.  The reference forms  and
  multiplies by it.  The kernel never forms Â: one device region copies A and sums its columns (deg = sums + 1), two
  more regions accumulate Aᵀ · Y tile by tile over a 4 × 24 grid, and the self loop enters each layer as the separate
  term d² ⊙ (h·W).  The format changes the kernel makes on the way (a copy of A and the scaled features in a narrower
  format) are the identity on the extended reals.

  What is proved here by hand.  The kernel's three regions each leave the array one expects of them: the copy and the
  column sums; the two aggregates Σ_r A(r, j)·Y(r, q), by induction over the grid points of each column block, a
  clearing step starting the sum and every other step adding one tile's contribution.  The host operations between
  the regions are read entry by entry, so that the array the kernel takes the softmax of is `preK` of the launch
  arrays, and the reference's is `preR`.  The two agree when every input entry is a real number: the step between them
  is distributivity, (a + e)·y = a·y + e·y and d·(s + d·h) = d·s + d²·h, which fails at the infinities, so the
  precondition (every input finite) is used, and realness is carried through every intermediate array.  The softmax
  chain is the same on both sides and is never opened.  The three frames are the generated ones; nothing was rewritten
  by the ideal pass, so the kernel's idealization is the kernel's own text.
-/
import proofs.«181473_j18975165513738_2_alg».proof.Defs
import proofs.«181473_j18975165513738_2_alg».proof.Proof.Gen.Kernel
import proofs.«181473_j18975165513738_2_alg».proof.Proof.Gen.Kernel.Skeleton
import proofs.«181473_j18975165513738_2_alg».proof.Proof.Gen.Kernel.Launch
import proofs.«181473_j18975165513738_2_alg».proof.Proof.Gen.Kernel.Points
import proofs.«181473_j18975165513738_2_alg».proof.Proof.Gen.Kernel.Frame
import proofs.«181473_j18975165513738_2_alg».proof.Proof.Gen.KernelIdeal
import proofs.«181473_j18975165513738_2_alg».proof.Proof.Gen.KernelIdeal.Skeleton
import proofs.«181473_j18975165513738_2_alg».proof.Proof.Gen.KernelIdeal.Launch
import proofs.«181473_j18975165513738_2_alg».proof.Proof.Gen.KernelIdeal.Points
import proofs.«181473_j18975165513738_2_alg».proof.Proof.Gen.KernelIdeal.Frame
import proofs.«181473_j18975165513738_2_alg».proof.Proof.Gen.ReferenceIdeal
import proofs.«181473_j18975165513738_2_alg».proof.Proof.Gen.ReferenceIdeal.Run
import proofs.«181473_j18975165513738_2_alg».proof.Proof.Gen.ReferenceIdeal.Read
import proofs.«181473_j18975165513738_2_alg».proof.Proof.Gen.Pre_finite_inputs
import proofs.«181473_j18975165513738_2_alg».proof.Proof.KRun
import proofs.«181473_j18975165513738_2_alg».proof.Proof.KChain
import proofs.«181473_j18975165513738_2_alg».proof.Proof.RefValue
import proofs.«181473_j18975165513738_2_alg».proof.Proof.Algebra
import proofs.«181473_j18975165513738_2_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no device region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, all finite, both programs end with the column-wise softmax of one and
    the same array: the kernel's is `preK` of the arguments, the reference's `preR`, and those agree on real entries. -/
theorem algebraic : Cert.algebraic_KernelIdeal_ReferenceIdeal := by
  intro m ρ m' ρ' hpre hagree
  refine ⟨fun c => Cert.KernelIdeal.Gen.W10 m ρ c (Proc.devRef .tc Cert.KernelIdeal.main_v52), Cert.Gcn.Ker.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.Gcn.Ref.res_eq m' c).trans ((congrArg Cert.Gcn.softmax0 ?_).trans (Cert.Gcn.KC.result_W10 m ρ c).symm)
  obtain ⟨rA, rX, rW1, rB1, rW2, rB2⟩ := Cert.Gcn.Finite.real_of_pre _ _ _ _ _ _ _ (hpre c)
  obtain ⟨e0, e1, e2, e3, e4, e5, -⟩ := hagree c
  funext y
  obtain ⟨j, q, rfl⟩ : ∃ (j : Fin 12288) (q : Fin 16), y = ix2 j q := ⟨y 0, y 1, eq_ix2 y⟩
  refine (Cert.Gcn.Ref.pre_apply m' c j q).trans ?_
  rw [e0, e1, e2, e3, e4, e5]
  refine Eq.trans ?_ (Cert.Gcn.KC.pre_W9 m ρ c j q).symm
  exact (congrFun (congrFun (Cert.Gcn.preK_eq_preR (Cert.Gcn.KC.cA m c) (Cert.Gcn.KC.cX m c) (Cert.Gcn.KC.cW1 m c)
    (Cert.Gcn.KC.cB1 m c) (Cert.Gcn.KC.cW2 m c) (Cert.Gcn.KC.cB2 m c)
    (fun i k => rA (ix2 i k)) (fun i k => rX (ix2 i k)) (fun k n => rW1 (ix2 k n)) (fun n => rB1 (ix1 n))
    (fun k n => rW2 (ix2 k n)) (fun n => rB2 (ix1 n))) j) q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
